-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x64x128 : Shape := ⟨4, ![16, 8, 64, 128]⟩
abbrev S_ : Shape := ⟨0, ![]⟩

class Facts : Prop where
  bcast_S_S16x8x64x128 : S_.BroadcastsInDim S16x8x64x128 (![] : Fin 0 → Fin S16x8x64x128.rank)
  reducesTo_S16x8x64x128_S_d0_1_2_3 : S16x8x64x128.ReducesTo [0, 1, 2, 3] S_
  h_S_ : 0 < S_.numel

variable [Facts]

def fn {F : FTy → Type} [FloatOps F] (main_arg0 : FVec F S16x8x64x128 .f32) (main_arg1 : FVec F S16x8x64x128 .f32) : IVec S_ 1 :=
  let main_v0 : FVec F S16x8x64x128 .f32 := Host.absf main_arg0
  let main_cst : FVec F S_ .f32 := constant S_ .f32 0x7F800000#32
  let main_v1 : FVec F S16x8x64x128 .f32 := broadcastInDim S16x8x64x128 ![] bcast_S_S16x8x64x128 main_cst
  let main_v2 : IVec S16x8x64x128 1 := cmpf .olt main_v0 main_v1
  let main_c : IVec S_ 1 := constantI S_ 1 1#1
  let main_v3 : IVec S_ 1 := (fun x v => Host.reduce IntOp.andi x v reducesTo_S16x8x64x128_S_d0_1_2_3 h_S_) main_v2 main_c
  let main_v4 : FVec F S16x8x64x128 .f32 := Host.absf main_arg1
  let main_cst_0 : FVec F S_ .f32 := constant S_ .f32 0x7F800000#32
  let main_v5 : FVec F S16x8x64x128 .f32 := broadcastInDim S16x8x64x128 ![] bcast_S_S16x8x64x128 main_cst_0
  let main_v6 : IVec S16x8x64x128 1 := cmpf .olt main_v4 main_v5
  let main_c_1 : IVec S_ 1 := constantI S_ 1 1#1
  let main_v7 : IVec S_ 1 := (fun x v => Host.reduce IntOp.andi x v reducesTo_S16x8x64x128_S_d0_1_2_3 h_S_) main_v6 main_c_1
  let main_v8 : IVec S_ 1 := andi main_v3 main_v7
  main_v8
-- ==== Kernel.lean ====
abbrev S16x8x64x128 : Shape := ⟨4, ![16, 8, 64, 128]⟩
abbrev S16x8x64x64 : Shape := ⟨4, ![16, 8, 64, 64]⟩
abbrev S1x8x64x128 : Shape := ⟨4, ![1, 8, 64, 128]⟩
abbrev S1x8x64x64 : Shape := ⟨4, ![1, 8, 64, 64]⟩
abbrev S1x1x64x128 : Shape := ⟨4, ![1, 1, 64, 128]⟩
abbrev S64x128 : Shape := ⟨2, ![64, 128]⟩
abbrev S64 : Shape := ⟨1, ![64]⟩
abbrev S64x1 : Shape := ⟨2, ![64, 1]⟩
abbrev S64x64 : Shape := ⟨2, ![64, 64]⟩
abbrev S1x64 : Shape := ⟨2, ![1, 64]⟩
abbrev S64x1x128 : Shape := ⟨3, ![64, 1, 128]⟩
abbrev S1x64x128 : Shape := ⟨3, ![1, 64, 128]⟩
abbrev S64x64x128 : Shape := ⟨3, ![64, 64, 128]⟩
abbrev S1x1x64x64 : Shape := ⟨4, ![1, 1, 64, 64]⟩
abbrev S16x8x64x64x1 : Shape := ⟨5, ![16, 8, 64, 64, 1]⟩
abbrev S16x8x64x64x3 : Shape := ⟨5, ![16, 8, 64, 64, 3]⟩
abbrev S16x32768x3 : Shape := ⟨3, ![16, 32768, 3]⟩

abbrev nBuf : Space → Nat
  | .hbm => 10
  | .vmem => 10
  | .smem => 0
  | _ => 0

abbrev bufTy : (tb : Table) → Fin (tcTables nBuf tb) → BufTy
  | .hbm, ⟨0, _⟩ => ⟨S16x8x64x128, .f32⟩
  | .hbm, ⟨1, _⟩ => ⟨S16x8x64x128, .f32⟩
  | .hbm, ⟨2, _⟩ => ⟨S16x8x64x64, .f32⟩
  | .hbm, ⟨3, _⟩ => ⟨S16x8x64x64, .f32⟩
  | .hbm, ⟨4, _⟩ => ⟨S16x8x64x64, .f32⟩
  | .hbm, ⟨5, _⟩ => ⟨S16x8x64x64x1, .f32⟩
  | .hbm, ⟨6, _⟩ => ⟨S16x8x64x64x1, .f32⟩
  | .hbm, ⟨7, _⟩ => ⟨S16x8x64x64x1, .f32⟩
  | .hbm, ⟨8, _⟩ => ⟨S16x8x64x64x3, .f32⟩
  | .hbm, ⟨9, _⟩ => ⟨S16x32768x3, .f32⟩
  | .local _ .vmem, ⟨0, _⟩ => ⟨S1x8x64x128, .f32⟩
  | .local _ .vmem, ⟨1, _⟩ => ⟨S1x8x64x128, .f32⟩
  | .local _ .vmem, ⟨2, _⟩ => ⟨S1x8x64x128, .f32⟩
  | .local _ .vmem, ⟨3, _⟩ => ⟨S1x8x64x128, .f32⟩
  | .local _ .vmem, ⟨4, _⟩ => ⟨S1x8x64x64, .f32⟩
  | .local _ .vmem, ⟨5, _⟩ => ⟨S1x8x64x64, .f32⟩
  | .local _ .vmem, ⟨6, _⟩ => ⟨S1x8x64x64, .f32⟩
  | .local _ .vmem, ⟨7, _⟩ => ⟨S1x8x64x64, .f32⟩
  | .local _ .vmem, ⟨8, _⟩ => ⟨S1x8x64x64, .f32⟩
  | .local _ .vmem, ⟨9, _⟩ => ⟨S1x8x64x64, .f32⟩
  | _, _ => ⟨S16x8x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 4 → Nat :=
  let c0 : Index := 0#32
  let c0_i32 : BitVec 32 := 0#32
  let c1_i32 : BitVec 32 := 1#32
  let arg6 : BitVec 32 := Scf.iv c0_i32 c1_i32 k0_t1
  let v1 : Index := Scalar.indexCast arg6
  let c0_1 : Index := 0#32
  let c0_2 : Index := 0#32
  ![0, v1.toNat, 0, 0]
def k0_off2 (k0_t1 : Fin k0_t1_loop.trips) : Fin 4 → Nat :=
  let c0_14 : Index := 0#32
  let c0_i32 : BitVec 32 := 0#32
  let c1_i32 : BitVec 32 := 1#32
  let arg6 : BitVec 32 := Scf.iv c0_i32 c1_i32 k0_t1
  let v44 : Index := Scalar.indexCast arg6
  let c0_15 : Index := 0#32
  let c0_16 : Index := 0#32
  ![0, v44.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  h_S1x1x64x128 : 0 < S1x1x64x128.numel
  shapeCasts_S1x1x64x128_S64x128 : S1x1x64x128.ShapeCasts S64x128
  reduces_S64x128_S64 : S64x128.Reduces [1] S64
  shapeCasts_S64_S64x1 : S64.ShapeCasts S64x1
  broadcasts_S64x1_S64x128 : S64x1.Broadcasts S64x128
  bitsLt_bf16_f32 : FTy.bits .bf16 < FTy.bits .f32
  transposes_S64x1_p1_0_S1x64 : S64x1.Transposes [1, 0] S1x64
  broadcasts_S64x1_S64x64 : S64x1.Broadcasts S64x64
  broadcasts_S1x64_S64x64 : S1x64.Broadcasts S64x64
  shapeCasts_S64x128_S64x1x128 : S64x128.ShapeCasts S64x1x128
  shapeCasts_S64x128_S1x64x128 : S64x128.ShapeCasts S1x64x128
  broadcasts_S64x1x128_S64x64x128 : S64x1x128.Broadcasts S64x64x128
  broadcasts_S1x64x128_S64x64x128 : S1x64x128.Broadcasts S64x64x128
  reduces_S64x64x128_S64x64 : S64x64x128.Reduces [2] S64x64
  h_S1x1x64x64 : 0 < S1x1x64x64.numel
  shapeCasts_S1x1x64x64_S64x64 : S1x1x64x64.ShapeCasts S64x64
  shapeCasts_S64x64_S1x1x64x64 : S64x64.ShapeCasts S1x1x64x64
  bcast_S16x8x64x64_S16x8x64x64x1_0_1_2_3 : S16x8x64x64.BroadcastsInDim S16x8x64x64x1 (![0, 1, 2, 3] : Fin 4 → Fin S16x8x64x64x1.rank)
  concatenates_S16x8x64x64x1_S16x8x64x64x1_S16x8x64x64x1_S16x8x64x64x3_d4 : Shape.Concatenates [S16x8x64x64x1, S16x8x64x64x1, S16x8x64x64x1] S16x8x64x64x3 4
  shapeCasts_S16x8x64x64x3_S16x32768x3 : S16x8x64x64x3.ShapeCasts S16x32768x3
  dot_S64x128_S64x128_S64x64_1_1_0_0_n_n_wf : DotDims.WF S64x128 S64x128 S64x64 [1] [1] [0] [0] [] []
  hrank0 : 0 < grid0.rank
  k0_t1_ok : k0_t1_loop.OK
  k0_off1_inb : ∀ k0_t1 : Fin k0_t1_loop.trips, ∀ a, (k0_off1 k0_t1) a + S1x1x64x128.size a ≤ S1x8x64x128.size a
  k0_off2_inb : ∀ k0_t1 : Fin k0_t1_loop.trips, ∀ a, (k0_off2 k0_t1) a + S1x1x64x64.size a ≤ S1x8x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64x128.size a ≤ S16x8x64x128.size a
  hwx0_0 : ∀ i : grid0.Coords, EltTy.bits .f32 = 32 ∨ (Rect.block (s := S16x8x64x128) S1x8x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x64x128.size a ≤ S16x8x64x128.size a
  hwx0_1 : ∀ i : grid0.Coords, EltTy.bits .f32 = 32 ∨ (Rect.block (s := S16x8x64x128) S1x8x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x64.size a ≤ S16x8x64x64.size a
  hwx0_2 : ∀ i : grid0.Coords, EltTy.bits .f32 = 32 ∨ (Rect.block (s := S16x8x64x64) S1x8x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64x64.size a ≤ S16x8x64x64.size a
  hwx0_3 : ∀ i : grid0.Coords, EltTy.bits .f32 = 32 ∨ (Rect.block (s := S16x8x64x64) S1x8x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x64x64.size a ≤ S16x8x64x64.size a
  hwx0_4 : ∀ i : grid0.Coords, EltTy.bits .f32 = 32 ∨ (Rect.block (s := S16x8x64x64) S1x8x64x64.size (cc0_transform_4 i) (hinb0_4 i)).WholeWords (EltTy.packing .f32)

variable [Facts₀]

def dot_S64x128_S64x128_S64x64_1_1_0_0_n_n : DotDims S64x128 S64x128 S64x64 where
  lhsContracting := [1]
  rhsContracting := [1]
  lhsNonContracting := [0]
  rhsNonContracting := [0]
  lhsBatch := []
  rhsBatch := []
  wf := dot_S64x128_S64x128_S64x64_1_1_0_0_n_n_wf

abbrev win0_0 : Pipeline.Window sig grid0 :=
  Pipeline.Window.ofSpec (Memref.whole main_arg0) S1x8x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x64x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x8x64x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x8x64x128 : Shape := ⟨4, ![16, 8, 64, 128]⟩
abbrev S_ : Shape := ⟨0, ![]⟩
abbrev S16x8x64 : Shape := ⟨3, ![16, 8, 64]⟩
abbrev S16x8x64x1 : Shape := ⟨4, ![16, 8, 64, 1]⟩
abbrev S16x8x64x64 : Shape := ⟨4, ![16, 8, 64, 64]⟩
abbrev S16x8x64x1x128 : Shape := ⟨5, ![16, 8, 64, 1, 128]⟩
abbrev S16x8x1x64x128 : Shape := ⟨5, ![16, 8, 1, 64, 128]⟩
abbrev S16x8x64x64x128 : Shape := ⟨5, ![16, 8, 64, 64, 128]⟩
abbrev S16x8x64x64x1 : Shape := ⟨5, ![16, 8, 64, 64, 1]⟩
abbrev S16x8x64x64x3 : Shape := ⟨5, ![16, 8, 64, 64, 3]⟩
abbrev S16x32768x3 : Shape := ⟨3, ![16, 32768, 3]⟩

abbrev nBuf : Space → Nat
  | .hbm => 40
  | .vmem => 0
  | .smem => 0
  | _ => 0

abbrev bufTy : (tb : Table) → Fin (tcTables nBuf tb) → BufTy
  | .hbm, ⟨0, _⟩ => ⟨S16x8x64x128, .f32⟩
  | .hbm, ⟨1, _⟩ => ⟨S16x8x64x128, .f32⟩
  | .hbm, ⟨2, _⟩ => ⟨S16x8x64x128, .f32⟩
  | .hbm, ⟨3, _⟩ => ⟨S_, .f32⟩
  | .hbm, ⟨4, _⟩ => ⟨S16x8x64, .f32⟩
  | .hbm, ⟨5, _⟩ => ⟨S16x8x64x1, .f32⟩
  | .hbm, ⟨6, _⟩ => ⟨S16x8x64x1, .f32⟩
  | .hbm, ⟨7, _⟩ => ⟨S_, .f32⟩
  | .hbm, ⟨8, _⟩ => ⟨S16x8x64x1, .f32⟩
  | .hbm, ⟨9, _⟩ => ⟨S16x8x64x1, .f32⟩
  | .hbm, ⟨10, _⟩ => ⟨S16x8x64x128, .f32⟩
  | .hbm, ⟨11, _⟩ => ⟨S16x8x64x128, .f32⟩
  | .hbm, ⟨12, _⟩ => ⟨S16x8x64x128, .f32⟩
  | .hbm, ⟨13, _⟩ => ⟨S_, .f32⟩
  | .hbm, ⟨14, _⟩ => ⟨S16x8x64, .f32⟩
  | .hbm, ⟨15, _⟩ => ⟨S16x8x64x1, .f32⟩
  | .hbm, ⟨16, _⟩ => ⟨S16x8x64x1, .f32⟩
  | .hbm, ⟨17, _⟩ => ⟨S_, .f32⟩
  | .hbm, ⟨18, _⟩ => ⟨S16x8x64x1, .f32⟩
  | .hbm, ⟨19, _⟩ => ⟨S16x8x64x1, .f32⟩
  | .hbm, ⟨20, _⟩ => ⟨S16x8x64x128, .f32⟩
  | .hbm, ⟨21, _⟩ => ⟨S16x8x64x128, .f32⟩
  | .hbm, ⟨22, _⟩ => ⟨S16x8x64x64, .f32⟩
  | .hbm, ⟨23, _⟩ => ⟨S16x8x64x1x128, .f32⟩
  | .hbm, ⟨24, _⟩ => ⟨S16x8x1x64x128, .f32⟩
  | .hbm, ⟨25, _⟩ => ⟨S16x8x64x64x128, .f32⟩
  | .hbm, ⟨26, _⟩ => ⟨S16x8x64x64x128, .f32⟩
  | .hbm, ⟨27, _⟩ => ⟨S16x8x64x64x128, .f32⟩
  | .hbm, ⟨28, _⟩ => ⟨S16x8x64x64x128, .f32⟩
  | .hbm, ⟨29, _⟩ => ⟨S_, .f32⟩
  | .hbm, ⟨30, _⟩ => ⟨S16x8x64x64, .f32⟩
  | .hbm, ⟨31, _⟩ => ⟨S16x8x64x64, .f32⟩
  | .hbm, ⟨32, _⟩ => ⟨S16x8x64x64x128, .f32⟩
  | .hbm, ⟨33, _⟩ => ⟨S_, .f32⟩
  | .hbm, ⟨34, _⟩ => ⟨S16x8x64x64, .f32⟩
  | .hbm, ⟨35, _⟩ => ⟨S16x8x64x64x1, .f32⟩
  | .hbm, ⟨36, _⟩ => ⟨S16x8x64x64x1, .f32⟩
  | .hbm, ⟨37, _⟩ => ⟨S16x8x64x64x1, .f32⟩
  | .hbm, ⟨38, _⟩ => ⟨S16x8x64x64x3, .f32⟩
  | .hbm, ⟨39, _⟩ => ⟨S16x32768x3, .f32⟩
  | _, _ => ⟨S16x8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S16x8x64x128_S16x8x64_d3 : S16x8x64x128.ReducesTo [3] S16x8x64
  h_S_ : 0 < S_.numel
  bcast_S16x8x64_S16x8x64x1_0_1_2 : S16x8x64.BroadcastsInDim S16x8x64x1 (![0, 1, 2] : Fin 3 → Fin S16x8x64x1.rank)
  bcast_S_S16x8x64x1 : S_.BroadcastsInDim S16x8x64x1 (![] : Fin 0 → Fin S16x8x64x1.rank)
  bcast_S16x8x64x1_S16x8x64x128_0_1_2_3 : S16x8x64x1.BroadcastsInDim S16x8x64x128 (![0, 1, 2, 3] : Fin 4 → Fin S16x8x64x128.rank)
  bcast_S16x8x64x128_S16x8x64x1x128_0_1_2_4 : S16x8x64x128.BroadcastsInDim S16x8x64x1x128 (![0, 1, 2, 4] : Fin 4 → Fin S16x8x64x1x128.rank)
  bcast_S16x8x64x128_S16x8x1x64x128_0_1_3_4 : S16x8x64x128.BroadcastsInDim S16x8x1x64x128 (![0, 1, 3, 4] : Fin 4 → Fin S16x8x1x64x128.rank)
  bcast_S16x8x64x1x128_S16x8x64x64x128_0_1_2_3_4 : S16x8x64x1x128.BroadcastsInDim S16x8x64x64x128 (![0, 1, 2, 3, 4] : Fin 5 → Fin S16x8x64x64x128.rank)
  bcast_S16x8x1x64x128_S16x8x64x64x128_0_1_2_3_4 : S16x8x1x64x128.BroadcastsInDim S16x8x64x64x128 (![0, 1, 2, 3, 4] : Fin 5 → Fin S16x8x64x64x128.rank)
  reducesTo_S16x8x64x64x128_S16x8x64x64_d4 : S16x8x64x64x128.ReducesTo [4] S16x8x64x64
  bcast_S16x8x64x64_S16x8x64x64x1_0_1_2_3 : S16x8x64x64.BroadcastsInDim S16x8x64x64x1 (![0, 1, 2, 3] : Fin 4 → Fin S16x8x64x64x1.rank)
  concatenates_S16x8x64x64x1_S16x8x64x64x1_S16x8x64x64x1_S16x8x64x64x3_d4 : Shape.Concatenates [S16x8x64x64x1, S16x8x64x64x1, S16x8x64x64x1] S16x8x64x64x3 4
  shapeCasts_S16x8x64x64x3_S16x32768x3 : S16x8x64x64x3.ShapeCasts S16x32768x3
  dot_S16x8x64x128_S16x8x64x128_S16x8x64x64_3_3_2_2_01_01_wf : DotDims.WF S16x8x64x128 S16x8x64x128 S16x8x64x64 [3] [3] [2] [2] [0, 1] [0, 1]

variable [Facts₀]

def dot_S16x8x64x128_S16x8x64x128_S16x8x64x64_3_3_2_2_01_01 : DotDims S16x8x64x128 S16x8x64x128 S16x8x64x64 where
  lhsContracting := [3]
  rhsContracting := [3]
  lhsNonContracting := [2]
  rhsNonContracting := [2]
  lhsBatch := [0, 1]
  rhsBatch := [0, 1]
  wf := dot_S16x8x64x128_S16x8x64x128_S16x8x64x64_3_3_2_2_01_01_wf

class Facts : Prop extends Facts₀ where

variable [Facts]
-- ==== Proof.KKit.lean ====
/-
  The program's run around its one kernel launch: what the launch finds in memory, the blocks its windows cut out of the
  two argument arrays, and why the five host lines after the launch (three unit-axis broadcasts, one concatenation, one
  reshape) write none of the arrays the launch stages.
-/
import proofs.«134121_j84593675862346_2_alg».proof.Proof.Gen.Kernel.Launch
import proofs.«134121_j84593675862346_2_alg».proof.Proof.Gen.Kernel.Skeleton
import proofs.«134121_j84593675862346_2_alg».proof.Proof.Gen.Kernel.Loops
import proofs.«134121_j84593675862346_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- Core `c`'s buffer contents when the launch is entered, as a valuation: the launch memory (no host line comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the launch allocate nothing. -/
theorem hostOps1_fresh : (hostOps1 : List (HloOp τ sig (Elt F))).Forall fun op => op.fresh = ∅ := by
  simp only [List.Forall]; repeat' constructor

/-- @main is the launch continued by the five host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the launch touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the five arrays the launch stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.unary_writes, StableHlo.nary_writes, StableHlo.reshape_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    launch-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run to the launch library's post (every staged array at what the proof data computes, every other buffer as
    the later lines leave it) to: both argument arrays end as they began. An input window's array is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The staging buffers -/

/-- One staging buffer of each output window, through which its contents are stated. -/
abbrev VO0_2 : View sig .tc .vmem S1x8x64x64 .f32 := (Memref.whole cc0_stg2_0 : Memref sig .tc .vmem S1x8x64x64 .f32).view
abbrev VO0_3 : View sig .tc .vmem S1x8x64x64 .f32 := (Memref.whole cc0_stg3_0 : Memref sig .tc .vmem S1x8x64x64 .f32).view
abbrev VO0_4 : View sig .tc .vmem S1x8x64x64 .f32 := (Memref.whole cc0_stg4_0 : Memref sig .tc .vmem S1x8x64x64 .f32).view
/-- Each window's current staging buffer at point `t`, as the launch passes it to the body, and that it is a whole buffer. -/
abbrev ms0_0 (t : Fin cfg0.N) : Memref sig .tc .vmem S1x8x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x64x64 .f32 := win0_4.stage (cfg0.slots t 4)
abbrev hs0_4 (t : Fin cfg0.N) : (ms0_4 t).IsWhole := hstage0_4 ((cfg0.slots t 4).cast nbuf0_4)

end Cert.Kernel.Hand

end
-- ==== Proof.KRun.lean ====
/-
  One call of the kernel body on whole staging buffers: the two input buffers hold a block of x and a block of y, the
  three output buffers hold anything. The body is a loop of eight trips; trip p loads row-slab p of both inputs and
  stores three 64 by 64 slabs at position p of the three outputs. It ends with the inputs as they were and each output
  at the eight trips' slabs written over whatever it held.
-/
import proofs.«134121_j84593675862346_2_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging buffer, as pieces (last first), with the proof that the body
    runs to its continuation holding the inputs as they were and each output with those pieces written. -/
noncomputable def kernelRun0_A (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 : Vec F S1x8x64x128 .f32) (x1 : Vec F S1x8x64x128 .f32) :
    Σ' (L2 : List (View.Piece (Elt F) S1x8x64x64 .f32)) (L3 : List (View.Piece (Elt F) S1x8x64x64 .f32)), { L4 : List (View.Piece (Elt F) S1x8x64x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__compare_kernel i arg1 harg1 arg2 harg2 arg3 harg3 arg4 harg4 arg5 harg5) K } := by
  refine ⟨?_, ?_, ?_, fun E K => ?run⟩
  case run =>
    simp only [cc0__compare_kernel_eq_skeleton]; unfold cc0__compare_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.Kernel.Hand

end
-- ==== Proof.KFrame.lean ====
/-
  The whole run of the program at any float instance: at every grid point the kernel body finds a block of x and a block
  of y in its two input staging buffers, leaves the eight trips' slabs in each of its three output staging buffers
  (together they tile the buffer, so nothing of what it held before is left), the launch writes the three blocks back,
  and the host lines after the launch run on what was written. The argument arrays are only read.
-/
import proofs.«134121_j84593675862346_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for each output tile its block (eight slabs of 1 x 1 x 64 x 64), so they cover it. -/
theorem cover0_A_2 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) (y : S1x8x64x64.Idx) :
    ∃ pc ∈ (kernelRun0_A c i arg1 harg1 arg2 harg2 arg3 harg3 arg4 harg4 arg5 harg5 x0 x1).1, y ∈ pc.1.set :=
  View.cover_of_tiledL (kernelRun0_A c i arg1 harg1 arg2 harg2 arg3 harg3 arg4 harg4 arg5 harg5 x0 x1).1 S1x1x64x64.size (by sl_kernel_rfl) y
theorem cover0_A_3 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) (y : S1x8x64x64.Idx) :
    ∃ pc ∈ (kernelRun0_A c i arg1 harg1 arg2 harg2 arg3 harg3 arg4 harg4 arg5 harg5 x0 x1).2.1, y ∈ pc.1.set :=
  View.cover_of_tiledL (kernelRun0_A c i arg1 harg1 arg2 harg2 arg3 harg3 arg4 harg4 arg5 harg5 x0 x1).2.1 S1x1x64x64.size (by sl_kernel_rfl) y
theorem cover0_A_4 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) (y : S1x8x64x64.Idx) :
    ∃ pc ∈ (kernelRun0_A c i arg1 harg1 arg2 harg2 arg3 harg3 arg4 harg4 arg5 harg5 x0 x1).2.2.1, y ∈ pc.1.set :=
  View.cover_of_tiledL (kernelRun0_A c i arg1 harg1 arg2 harg2 arg3 harg3 arg4 harg4 arg5 harg5 x0 x1).2.2.1 S1x1x64x64.size (by sl_kernel_rfl) y

/-- What the run leaves in each output's staging buffer: its pieces read back (over contents that do not matter). -/
def out0_A_2 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) : Vec F S1x8x64x64 .f32 :=
  VO0_2.read (Elt F) (VO0_2.writes (Elt F) VO0_2.junk (kernelRun0_A c i arg1 harg1 arg2 harg2 arg3 harg3 arg4 harg4 arg5 harg5 x0 x1).1)
def out0_A_3 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) : Vec F S1x8x64x64 .f32 :=
  VO0_3.read (Elt F) (VO0_3.writes (Elt F) VO0_3.junk (kernelRun0_A c i arg1 harg1 arg2 harg2 arg3 harg3 arg4 harg4 arg5 harg5 x0 x1).2.1)
def out0_A_4 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) : Vec F S1x8x64x64 .f32 :=
  VO0_4.read (Elt F) (VO0_4.writes (Elt F) VO0_4.junk (kernelRun0_A c i arg1 harg1 arg2 harg2 arg3 harg3 arg4 harg4 arg5 harg5 x0 x1).2.2.1)

/-! ## What the outputs hold after each point -/

def outAt0_2 (c : Dev nD) (t : Fin cfg0.N) : Vec F S1x8x64x64 .f32 :=
  out0_A_2 c (grid0.coords t) (ms0_0 t) (hs0_0 t) (ms0_1 t) (hs0_1 t) (ms0_2 t) (hs0_2 t) (ms0_3 t) (hs0_3 t) (ms0_4 t) (hs0_4 t) (iblk m c 0 t) (iblk m c 1 t)
def outAt0_3 (c : Dev nD) (t : Fin cfg0.N) : Vec F S1x8x64x64 .f32 :=
  out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t)
def outAt0_4 (c : Dev nD) (t : Fin cfg0.N) : Vec F S1x8x64x64 .f32 :=
  out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t)

/-! ## The launch's proof data -/

/-- The arrays as the launch finds them; after the body at point `t` each input's buffer at its block and each output's
    at what the run leaves; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt0_2 m c t
    | ⟨3, _⟩ => outAt0_3 m c t
    | ⟨4, _⟩ => outAt0_4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt0_2 m c t := by dsimp only [dats]
theorem after0_3 (c : Dev nD) (t : Fin cfg0.N) : (dats m 0 c).after 3 t = outAt0_3 m c t := by dsimp only [dats]
theorem after0_4 (c : Dev nD) (t : Fin cfg0.N) : (dats m 0 c).after 4 t = outAt0_4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' buffers hold their blocks, so the run applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outAt0_2 outAt0_3 outAt0_4
  unfold out0_A_2 out0_A_3 out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t)).2.2.2 Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _)
  unfold owns; iexists _; isplitr
  swap; · iexact H4
  ipureintro; exact View.read_writes_of_cover _ _ _ _ _ (cover0_A_4 c _ _ _ _ _ _ _ _ _ _ _ _ _)

/-- The launch library's body obligation, at every point. -/
theorem body_obligation (c : Dev nD) : BodyObligation (dats (F := F) m 0 c) (defs₀ (F := F)) Variants.none () Set.univ := fun t => by
  rw [bigSep_W0, bigSep_W0]
  exact sound_body m c t

/-! ## The run and the unchanged arguments -/

set_option backward.isDefEq.respectTransparency.types false in
/-- Every weakly fair execution of @main terminates; in every final state each staged array is what the launch library
    computes from the proof data and every other unscoped buffer is as the five host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KIKit.lean ====
/-
  The program's run around its one kernel launch: what the launch finds in memory, the blocks its windows cut out of the
  two argument arrays, and why the five host lines after the launch (three unit-axis broadcasts, one concatenation, one
  reshape) write none of the arrays the launch stages.
-/
import proofs.«134121_j84593675862346_2_alg».proof.Proof.Gen.KernelIdeal.Launch
import proofs.«134121_j84593675862346_2_alg».proof.Proof.Gen.KernelIdeal.Skeleton
import proofs.«134121_j84593675862346_2_alg».proof.Proof.Gen.KernelIdeal.Loops
import proofs.«134121_j84593675862346_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- Core `c`'s buffer contents when the launch is entered, as a valuation: the launch memory (no host line comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the launch allocate nothing. -/
theorem hostOps1_fresh : (hostOps1 : List (HloOp τ sig (Elt F))).Forall fun op => op.fresh = ∅ := by
  simp only [List.Forall]; repeat' constructor

/-- @main is the launch continued by the five host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the launch touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the five arrays the launch stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.unary_writes, StableHlo.nary_writes, StableHlo.reshape_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    launch-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run to the launch library's post (every staged array at what the proof data computes, every other buffer as
    the later lines leave it) to: both argument arrays end as they began. An input window's array is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The staging buffers -/

/-- One staging buffer of each output window, through which its contents are stated. -/
abbrev VO0_2 : View sig .tc .vmem S1x8x64x64 .f32 := (Memref.whole cc0_stg2_0 : Memref sig .tc .vmem S1x8x64x64 .f32).view
abbrev VO0_3 : View sig .tc .vmem S1x8x64x64 .f32 := (Memref.whole cc0_stg3_0 : Memref sig .tc .vmem S1x8x64x64 .f32).view
abbrev VO0_4 : View sig .tc .vmem S1x8x64x64 .f32 := (Memref.whole cc0_stg4_0 : Memref sig .tc .vmem S1x8x64x64 .f32).view
/-- Each window's current staging buffer at point `t`, as the launch passes it to the body, and that it is a whole buffer. -/
abbrev ms0_0 (t : Fin cfg0.N) : Memref sig .tc .vmem S1x8x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x64x64 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KIRun.lean ====
/-
  One call of the kernel body on whole staging buffers: the two input buffers hold a block of x and a block of y, the
  three output buffers hold anything. The body is a loop of eight trips; trip p loads row-slab p of both inputs and
  stores three 64 by 64 slabs at position p of the three outputs. It ends with the inputs as they were and each output
  at the eight trips' slabs written over whatever it held.
-/
import proofs.«134121_j84593675862346_2_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging buffer, as pieces (last first), with the proof that the body
    runs to its continuation holding the inputs as they were and each output with those pieces written. -/
noncomputable def kernelRun0_A (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 : Vec F S1x8x64x128 .f32) (x1 : Vec F S1x8x64x128 .f32) :
    Σ' (L2 : List (View.Piece (Elt F) S1x8x64x64 .f32)) (L3 : List (View.Piece (Elt F) S1x8x64x64 .f32)), { L4 : List (View.Piece (Elt F) S1x8x64x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__compare_kernel i arg1 harg1 arg2 harg2 arg3 harg3 arg4 harg4 arg5 harg5) K } := by
  refine ⟨?_, ?_, ?_, fun E K => ?run⟩
  case run =>
    simp only [cc0__compare_kernel_eq_skeleton]; unfold cc0__compare_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.KernelIdeal.Hand

end
-- ==== Proof.KIFrame.lean ====
/-
  The whole run of the program at any float instance: at every grid point the kernel body finds a block of x and a block
  of y in its two input staging buffers, leaves the eight trips' slabs in each of its three output staging buffers
  (together they tile the buffer, so nothing of what it held before is left), the launch writes the three blocks back,
  and the host lines after the launch run on what was written. The argument arrays are only read.
-/
import proofs.«134121_j84593675862346_2_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for each output tile its block (eight slabs of 1 x 1 x 64 x 64), so they cover it. -/
theorem cover0_A_2 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) (y : S1x8x64x64.Idx) :
    ∃ pc ∈ (kernelRun0_A c i arg1 harg1 arg2 harg2 arg3 harg3 arg4 harg4 arg5 harg5 x0 x1).1, y ∈ pc.1.set :=
  View.cover_of_tiledL (kernelRun0_A c i arg1 harg1 arg2 harg2 arg3 harg3 arg4 harg4 arg5 harg5 x0 x1).1 S1x1x64x64.size (by sl_kernel_rfl) y
theorem cover0_A_3 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) (y : S1x8x64x64.Idx) :
    ∃ pc ∈ (kernelRun0_A c i arg1 harg1 arg2 harg2 arg3 harg3 arg4 harg4 arg5 harg5 x0 x1).2.1, y ∈ pc.1.set :=
  View.cover_of_tiledL (kernelRun0_A c i arg1 harg1 arg2 harg2 arg3 harg3 arg4 harg4 arg5 harg5 x0 x1).2.1 S1x1x64x64.size (by sl_kernel_rfl) y
theorem cover0_A_4 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) (y : S1x8x64x64.Idx) :
    ∃ pc ∈ (kernelRun0_A c i arg1 harg1 arg2 harg2 arg3 harg3 arg4 harg4 arg5 harg5 x0 x1).2.2.1, y ∈ pc.1.set :=
  View.cover_of_tiledL (kernelRun0_A c i arg1 harg1 arg2 harg2 arg3 harg3 arg4 harg4 arg5 harg5 x0 x1).2.2.1 S1x1x64x64.size (by sl_kernel_rfl) y

/-- What the run leaves in each output's staging buffer: its pieces read back (over contents that do not matter). -/
def out0_A_2 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) : Vec F S1x8x64x64 .f32 :=
  VO0_2.read (Elt F) (VO0_2.writes (Elt F) VO0_2.junk (kernelRun0_A c i arg1 harg1 arg2 harg2 arg3 harg3 arg4 harg4 arg5 harg5 x0 x1).1)
def out0_A_3 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) : Vec F S1x8x64x64 .f32 :=
  VO0_3.read (Elt F) (VO0_3.writes (Elt F) VO0_3.junk (kernelRun0_A c i arg1 harg1 arg2 harg2 arg3 harg3 arg4 harg4 arg5 harg5 x0 x1).2.1)
def out0_A_4 (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole)
    (x0 x1 : Vec F S1x8x64x128 .f32) : Vec F S1x8x64x64 .f32 :=
  VO0_4.read (Elt F) (VO0_4.writes (Elt F) VO0_4.junk (kernelRun0_A c i arg1 harg1 arg2 harg2 arg3 harg3 arg4 harg4 arg5 harg5 x0 x1).2.2.1)

/-! ## What the outputs hold after each point -/

def outAt0_2 (c : Dev nD) (t : Fin cfg0.N) : Vec F S1x8x64x64 .f32 :=
  out0_A_2 c (grid0.coords t) (ms0_0 t) (hs0_0 t) (ms0_1 t) (hs0_1 t) (ms0_2 t) (hs0_2 t) (ms0_3 t) (hs0_3 t) (ms0_4 t) (hs0_4 t) (iblk m c 0 t) (iblk m c 1 t)
def outAt0_3 (c : Dev nD) (t : Fin cfg0.N) : Vec F S1x8x64x64 .f32 :=
  out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t)
def outAt0_4 (c : Dev nD) (t : Fin cfg0.N) : Vec F S1x8x64x64 .f32 :=
  out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t)

/-! ## The launch's proof data -/

/-- The arrays as the launch finds them; after the body at point `t` each input's buffer at its block and each output's
    at what the run leaves; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt0_2 m c t
    | ⟨3, _⟩ => outAt0_3 m c t
    | ⟨4, _⟩ => outAt0_4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt0_2 m c t := by dsimp only [dats]
theorem after0_3 (c : Dev nD) (t : Fin cfg0.N) : (dats m 0 c).after 3 t = outAt0_3 m c t := by dsimp only [dats]
theorem after0_4 (c : Dev nD) (t : Fin cfg0.N) : (dats m 0 c).after 4 t = outAt0_4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' buffers hold their blocks, so the run applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outAt0_2 outAt0_3 outAt0_4
  unfold out0_A_2 out0_A_3 out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t)).2.2.2 Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _)
  unfold owns; iexists _; isplitr
  swap; · iexact H4
  ipureintro; exact View.read_writes_of_cover _ _ _ _ _ (cover0_A_4 c _ _ _ _ _ _ _ _ _ _ _ _ _)

/-- The launch library's body obligation, at every point. -/
theorem body_obligation (c : Dev nD) : BodyObligation (dats (F := F) m 0 c) (defs₀ (F := F)) Variants.none () Set.univ := fun t => by
  rw [bigSep_W0, bigSep_W0]
  exact sound_body m c t

/-! ## The run and the unchanged arguments -/

set_option backward.isDefEq.respectTransparency.types false in
/-- Every weakly fair execution of @main terminates; in every final state each staged array is what the launch library
    computes from the proof data and every other unscoped buffer is as the five host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KIBlock.lean ====
/-
  What one call of the kernel body leaves in each output buffer, as one function of the two input blocks.

  Trip k of the body's loop reads slab k (rows (0, k, ·, ·)) of each input block and stores, at slab k of each output
  buffer, one 64 by 64 array computed from those two slabs alone. So after the eight trips the entry (0, k, n, m) of an
  output buffer is entry (n, m) of what trip k stored: a function of slab k of x and slab k of y.
-/
import proofs.«134121_j84593675862346_2_alg».proof.Proof.KIFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The loop makes eight trips. -/
theorem trips_eq : k0_t1_loop.trips = 8 := by decide

/-- Slab k of an input block: its rows (0, k, ·, ·), as the loop's trip k loads them. -/
def slab (x : Vec F S1x8x64x128 .f32) (k : Fin k0_t1_loop.trips) : Vec F S1x1x64x128 .f32 :=
  View.ld x (Rect.unit (s := S1x8x64x128) (k0_off1 k) S1x1x64x128.size (k0_off1_inb k))

/-- The trip that wrote row-slab `(y 1)` of an output buffer. -/
def tripOf (y : S1x8x64x64.Idx) : Fin k0_t1_loop.trips := ⟨(y 1).val, by rw [trips_eq]; exact (y 1).isLt⟩

/-- The position inside a slab of an index of an output buffer. -/
def inSlab (y : S1x8x64x64.Idx) : S1x1x64x64.Idx := ix4 (0 : Fin 1) (0 : Fin 1) ⟨(y 2).val, (y 2).isLt⟩ ⟨(y 3).val, (y 3).isLt⟩

/-- What the eight trips leave in the three output buffers, entry by entry. -/
def G2 (x0 x1 : Vec F S1x8x64x128 .f32) : Vec F S1x8x64x64 .f32 :=
  fun y => k0_pay1 (k0_pay8 (slab x0 (tripOf y)) (slab x1 (tripOf y))) (inSlab y)
def G3 (x0 x1 : Vec F S1x8x64x128 .f32) : Vec F S1x8x64x64 .f32 :=
  fun y => k0_pay2 (k0_pay9 (slab x0 (tripOf y)) (slab x1 (tripOf y))) (inSlab y)
def G4 (x0 x1 : Vec F S1x8x64x128 .f32) : Vec F S1x8x64x64 .f32 :=
  fun y => k0_pay3 (k0_pay10 (slab x0 (tripOf y)) (slab x1 (tripOf y))) (inSlab y)

/-- Trip k's one store into each output buffer: at slab k, the trip's value of the two slabs it loaded. -/
theorem trip_pieces (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole) (x0 x1 : Vec F S1x8x64x128 .f32) (k : Fin k0_t1_loop.trips) :
    tripL_k0_t1 (F := F) Variants.none c none i arg1 harg1 arg2 harg2 arg3 harg3 arg4 harg4 arg5 harg5 (harg1.unread x0) (harg2.unread x1) k
      = ([⟨Rect.unit (s := S1x8x64x64) (k0_off2 k) S1x1x64x64.size (k0_off2_inb k), k0_pay1 (k0_pay8 (slab x0 k) (slab x1 k))⟩],
         [⟨Rect.unit (s := S1x8x64x64) (k0_off2 k) S1x1x64x64.size (k0_off2_inb k), k0_pay2 (k0_pay9 (slab x0 k) (slab x1 k))⟩],
         [⟨Rect.unit (s := S1x8x64x64) (k0_off2 k) S1x1x64x64.size (k0_off2_inb k), k0_pay3 (k0_pay10 (slab x0 k) (slab x1 k))⟩]) := by
  unfold slab
  rw [← harg1.read_unread x0, ← harg2.read_unread x1]
  simp only [← View.readAt_eq_ld, harg1.unread_read, harg2.unread_read]
  unfold tripL_k0_t1 trip_k0_t1
  dsimp only
  sl_unfold_run_names
  rfl

/-- Where trip k's slab sits: the local index x of its rectangle is the buffer's index (0, k, x₂, x₃). -/
theorem slab_index (k : Fin k0_t1_loop.trips) (x : (Rect.unit (s := S1x8x64x64) (k0_off2 k) S1x1x64x64.size (k0_off2_inb k)).shape.Idx) :
    tripOf ((Rect.unit (s := S1x8x64x64) (k0_off2 k) S1x1x64x64.size (k0_off2_inb k)).emb x) = k
    ∧ inSlab ((Rect.unit (s := S1x8x64x64) (k0_off2 k) S1x1x64x64.size (k0_off2_inb k)).emb x) = x := by
  have h0 : (x 0).val = 0 := by have := (x 0).isLt; exact Nat.lt_one_iff.mp this
  have h1 : (x 1).val = 0 := by have := (x 1).isLt; exact Nat.lt_one_iff.mp this
  constructor
  · apply Fin.ext
    show ((Rect.unit (s := S1x8x64x64) (k0_off2 k) S1x1x64x64.size (k0_off2_inb k)).emb x 1).val = k.val
    rw [Rect.emb_apply, Rect.off_unit, Rect.stride_unit, show k0_off2 k 1 = k.val from congrFun (k0_off2_eq k) 1]
    omega
  · funext a
    apply Fin.ext
    match a with
    | ⟨0, _⟩ => exact h0.symm
    | ⟨1, _⟩ => exact h1.symm
    | ⟨2, _⟩ =>
      show ((Rect.unit (s := S1x8x64x64) (k0_off2 k) S1x1x64x64.size (k0_off2_inb k)).emb x 2).val = (x 2).val
      rw [Rect.emb_apply, Rect.off_unit, Rect.stride_unit, show k0_off2 k 2 = 0 from congrFun (k0_off2_eq k) 2]
      omega
    | ⟨3, _⟩ =>
      show ((Rect.unit (s := S1x8x64x64) (k0_off2 k) S1x1x64x64.size (k0_off2_inb k)).emb x 3).val = (x 3).val
      rw [Rect.emb_apply, Rect.off_unit, Rect.stride_unit, show k0_off2 k 3 = 0 from congrFun (k0_off2_eq k) 3]
      omega

/-- Every piece of the trips before `n` is a block of the one function. -/
theorem pieces_before (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole) (x0 x1 : Vec F S1x8x64x128 .f32) :
    ∀ n : ℕ,
      (∀ p ∈ (pb_k0_t1 (F := F) Variants.none c none i arg1 harg1 arg2 harg2 arg3 harg3 arg4 harg4 arg5 harg5 (harg1.unread x0) (harg2.unread x1) n).1, ∀ x : p.1.shape.Idx, p.2 x = G2 x0 x1 (p.1.emb x))
      ∧ (∀ p ∈ (pb_k0_t1 (F := F) Variants.none c none i arg1 harg1 arg2 harg2 arg3 harg3 arg4 harg4 arg5 harg5 (harg1.unread x0) (harg2.unread x1) n).2.1, ∀ x : p.1.shape.Idx, p.2 x = G3 x0 x1 (p.1.emb x))
      ∧ (∀ p ∈ (pb_k0_t1 (F := F) Variants.none c none i arg1 harg1 arg2 harg2 arg3 harg3 arg4 harg4 arg5 harg5 (harg1.unread x0) (harg2.unread x1) n).2.2, ∀ x : p.1.shape.Idx, p.2 x = G4 x0 x1 (p.1.emb x))
  | 0 => ⟨fun p hp => absurd hp List.not_mem_nil, fun p hp => absurd hp List.not_mem_nil, fun p hp => absurd hp List.not_mem_nil⟩
  | n + 1 => by
    obtain ⟨ih2, ih3, ih4⟩ := pieces_before c i arg1 harg1 arg2 harg2 arg3 harg3 arg4 harg4 arg5 harg5 x0 x1 n
    by_cases hn : n < k0_t1_loop.trips
    · have hs := pb_k0_t1_succ (F := F) Variants.none c none i arg1 harg1 arg2 harg2 arg3 harg3 arg4 harg4 arg5 harg5 (harg1.unread x0) (harg2.unread x1) ⟨n, hn⟩
      rw [trip_pieces] at hs
      rw [show n + 1 = (⟨n, hn⟩ : Fin k0_t1_loop.trips).val + 1 from rfl, hs]
      refine ⟨fun p hp x => ?_, fun p hp x => ?_, fun p hp x => ?_⟩
      · rcases List.mem_append.mp hp with h | h
        · obtain rfl := List.mem_singleton.mp h
          obtain ⟨e1, e2⟩ := slab_index ⟨n, hn⟩ x
          show k0_pay1 (k0_pay8 (slab x0 ⟨n, hn⟩) (slab x1 ⟨n, hn⟩)) x = G2 x0 x1 _
          unfold G2
          rw [e1, e2]
        · exact ih2 p h x
      · rcases List.mem_append.mp hp with h | h
        · obtain rfl := List.mem_singleton.mp h
          obtain ⟨e1, e2⟩ := slab_index ⟨n, hn⟩ x
          show k0_pay2 (k0_pay9 (slab x0 ⟨n, hn⟩) (slab x1 ⟨n, hn⟩)) x = G3 x0 x1 _
          unfold G3
          rw [e1, e2]
        · exact ih3 p h x
      · rcases List.mem_append.mp hp with h | h
        · obtain rfl := List.mem_singleton.mp h
          obtain ⟨e1, e2⟩ := slab_index ⟨n, hn⟩ x
          show k0_pay3 (k0_pay10 (slab x0 ⟨n, hn⟩) (slab x1 ⟨n, hn⟩)) x = G4 x0 x1 _
          unfold G4
          rw [e1, e2]
        · exact ih4 p h x
    · have hs : pb_k0_t1 (F := F) Variants.none c none i arg1 harg1 arg2 harg2 arg3 harg3 arg4 harg4 arg5 harg5 (harg1.unread x0) (harg2.unread x1) (n + 1)
          = pb_k0_t1 (F := F) Variants.none c none i arg1 harg1 arg2 harg2 arg3 harg3 arg4 harg4 arg5 harg5 (harg1.unread x0) (harg2.unread x1) n := by
        rw [pb_k0_t1.eq_2]; unfold pb_k0_t1Step; exact dif_neg hn
      rw [hs]
      exact ⟨ih2, ih3, ih4⟩

/-- The body's run leaves the one function in each output buffer. -/
theorem out2_eq (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole) (x0 x1 : Vec F S1x8x64x128 .f32) :
    out0_A_2 c i arg1 harg1 arg2 harg2 arg3 harg3 arg4 harg4 arg5 harg5 x0 x1 = G2 x0 x1 := by
  unfold out0_A_2
  rw [View.read_writes_eq_canon _ _ _ (cover0_A_2 c i arg1 harg1 arg2 harg2 arg3 harg3 arg4 harg4 arg5 harg5 x0 x1)]
  funext y
  refine View.canon_apply_of_pieces (G2 x0 x1) _ ?_ y (cover0_A_2 c i arg1 harg1 arg2 harg2 arg3 harg3 arg4 harg4 arg5 harg5 x0 x1 y)
  have hL : (kernelRun0_A c i arg1 harg1 arg2 harg2 arg3 harg3 arg4 harg4 arg5 harg5 x0 x1).1
      = (pb_k0_t1 (F := F) Variants.none c none i arg1 harg1 arg2 harg2 arg3 harg3 arg4 harg4 arg5 harg5 (harg1.unread x0) (harg2.unread x1) k0_t1_loop.trips).1 := by
    unfold kernelRun0_A; rfl
  rw [hL]
  exact (pieces_before c i arg1 harg1 arg2 harg2 arg3 harg3 arg4 harg4 arg5 harg5 x0 x1 _).1
theorem out3_eq (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole) (x0 x1 : Vec F S1x8x64x128 .f32) :
    out0_A_3 c i arg1 harg1 arg2 harg2 arg3 harg3 arg4 harg4 arg5 harg5 x0 x1 = G3 x0 x1 := by
  unfold out0_A_3
  rw [View.read_writes_eq_canon _ _ _ (cover0_A_3 c i arg1 harg1 arg2 harg2 arg3 harg3 arg4 harg4 arg5 harg5 x0 x1)]
  funext y
  refine View.canon_apply_of_pieces (G3 x0 x1) _ ?_ y (cover0_A_3 c i arg1 harg1 arg2 harg2 arg3 harg3 arg4 harg4 arg5 harg5 x0 x1 y)
  have hL : (kernelRun0_A c i arg1 harg1 arg2 harg2 arg3 harg3 arg4 harg4 arg5 harg5 x0 x1).2.1
      = (pb_k0_t1 (F := F) Variants.none c none i arg1 harg1 arg2 harg2 arg3 harg3 arg4 harg4 arg5 harg5 (harg1.unread x0) (harg2.unread x1) k0_t1_loop.trips).2.1 := by
    unfold kernelRun0_A; rfl
  rw [hL]
  exact (pieces_before c i arg1 harg1 arg2 harg2 arg3 harg3 arg4 harg4 arg5 harg5 x0 x1 _).2.1
theorem out4_eq (c : Dev nD) (i : grid0.Coords) (arg1 : Memref sig .tc .vmem S1x8x64x128 .f32) (harg1 : arg1.IsWhole) (arg2 : Memref sig .tc .vmem S1x8x64x128 .f32) (harg2 : arg2.IsWhole) (arg3 : Memref sig .tc .vmem S1x8x64x64 .f32) (harg3 : arg3.IsWhole) (arg4 : Memref sig .tc .vmem S1x8x64x64 .f32) (harg4 : arg4.IsWhole) (arg5 : Memref sig .tc .vmem S1x8x64x64 .f32) (harg5 : arg5.IsWhole) (x0 x1 : Vec F S1x8x64x128 .f32) :
    out0_A_4 c i arg1 harg1 arg2 harg2 arg3 harg3 arg4 harg4 arg5 harg5 x0 x1 = G4 x0 x1 := by
  unfold out0_A_4
  rw [View.read_writes_eq_canon _ _ _ (cover0_A_4 c i arg1 harg1 arg2 harg2 arg3 harg3 arg4 harg4 arg5 harg5 x0 x1)]
  funext y
  refine View.canon_apply_of_pieces (G4 x0 x1) _ ?_ y (cover0_A_4 c i arg1 harg1 arg2 harg2 arg3 harg3 arg4 harg4 arg5 harg5 x0 x1 y)
  have hL : (kernelRun0_A c i arg1 harg1 arg2 harg2 arg3 harg3 arg4 harg4 arg5 harg5 x0 x1).2.2.1
      = (pb_k0_t1 (F := F) Variants.none c none i arg1 harg1 arg2 harg2 arg3 harg3 arg4 harg4 arg5 harg5 (harg1.unread x0) (harg2.unread x1) k0_t1_loop.trips).2.2 := by
    unfold kernelRun0_A; rfl
  rw [hL]
  exact (pieces_before c i arg1 harg1 arg2 harg2 arg3 harg3 arg4 harg4 arg5 harg5 x0 x1 _).2.2

end Cert.KernelIdeal.Hand

end
-- ==== Proof.KIGeom.lean ====
/-
  The launch's geometry: the grid has 16 points, and at point t every window's block is the slab of its array whose
  leading coordinate is t, at full extent on the other three axes (block index (t, 0, 0, 0), block size 1 on the
  leading axis). So an input block read at (0, k, n, d) is the argument array at (t, k, n, d), an output block's
  entry (0, k, n, m) sits at (t, k, n, m) of its array, and the 16 blocks of an output window together cover its array:
  the index (s, k, n, m) lies in the block of point s.
-/
import proofs.«134121_j84593675862346_2_alg».proof.Proof.KIFrame
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- The grid point as the leading coordinate. -/
def tIdx (t : Fin cfg0.N) : Fin 16 := ⟨t.val, by have := t.isLt; have hN : cfg0.N = 16 := N_0; omega⟩

/-- The printed index maps, decided over the grid: every window's block index at point t is (t, 0, 0, 0). -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0) :=
  (by decide +kernel : ∀ t : Fin grid0.N, _)

/-- Input window 0's block at point t, at (0, k, n, d), is the first argument array at (t, k, n, d). -/
theorem iblk0_apply (c : Dev nD) (t : Fin cfg0.N) (k : Fin 8) (n : Fin 64) (d : Fin 128) :
    (iblk m c 0 t : Vec F S1x8x64x128 .f32) (ix4 (0 : Fin 1) k n d) = (m ((c : Thread nD τ).loc main_arg0) : S16x8x64x128.Idx → Elt F .f32) (ix4 (tIdx t) k n d) := by
  obtain ⟨e0, e1, e2, e3⟩ := (idx_facts t).1
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = t.val; rw [e0]; omega
  | ⟨1, _⟩ => show win0_0.index t (1 : Fin 4) * 8 + 1 * k.val = k.val; rw [e1]; omega
  | ⟨2, _⟩ => show win0_0.index t (2 : Fin 4) * 64 + 1 * n.val = n.val; rw [e2]; omega
  | ⟨3, _⟩ => show win0_0.index t (3 : Fin 4) * 128 + 1 * d.val = d.val; rw [e3]; omega

/-- Input window 1's block at point t, at (0, k, n, d), is the second argument array at (t, k, n, d). -/
theorem iblk1_apply (c : Dev nD) (t : Fin cfg0.N) (k : Fin 8) (n : Fin 64) (d : Fin 128) :
    (iblk m c 1 t : Vec F S1x8x64x128 .f32) (ix4 (0 : Fin 1) k n d) = (m ((c : Thread nD τ).loc main_arg1) : S16x8x64x128.Idx → Elt F .f32) (ix4 (tIdx t) k n d) := by
  obtain ⟨e0, e1, e2, e3⟩ := (idx_facts t).2.1
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * 0 = t.val; rw [e0]; omega
  | ⟨1, _⟩ => show win0_1.index t (1 : Fin 4) * 8 + 1 * k.val = k.val; rw [e1]; omega
  | ⟨2, _⟩ => show win0_1.index t (2 : Fin 4) * 64 + 1 * n.val = n.val; rw [e2]; omega
  | ⟨3, _⟩ => show win0_1.index t (3 : Fin 4) * 128 + 1 * d.val = d.val; rw [e3]; omega

/-- Output window 2's block at point t sits at rows (t, ·, ·, ·) of its array. -/
theorem blk2_emb (t : Fin cfg0.N) (y : S1x8x64x64.Idx) :
    (((cfg0.win 2).blk t).view.emb y : S16x8x64x64.Idx) = ix4 (tIdx t) ⟨(y 1).val, (y 1).isLt⟩ ⟨(y 2).val, (y 2).isLt⟩ ⟨(y 3).val, (y 3).isLt⟩ := by
  obtain ⟨e0, e1, e2, e3⟩ := (idx_facts t).2.2.1
  funext a
  apply Fin.ext
  match a with
  | ⟨0, _⟩ => show win0_2.index t (0 : Fin 4) * 1 + 1 * (y 0).val = t.val; rw [e0]; have h : (y 0).val < 1 := (y 0).isLt; omega
  | ⟨1, _⟩ => show win0_2.index t (1 : Fin 4) * 8 + 1 * (y 1).val = (y 1).val; rw [e1]; omega
  | ⟨2, _⟩ => show win0_2.index t (2 : Fin 4) * 64 + 1 * (y 2).val = (y 2).val; rw [e2]; omega
  | ⟨3, _⟩ => show win0_2.index t (3 : Fin 4) * 64 + 1 * (y 3).val = (y 3).val; rw [e3]; omega

/-- An index of output array 2 is in point t's block iff each coordinate is in the block's range on its axis. -/
theorem mem_blk2 (t : Fin cfg0.N) (i : S16x8x64x64.Idx) :
    i ∈ ((cfg0.win 2).blk t).view.set ↔ ∀ a : Fin 4, win0_2.index t a * S1x8x64x64.size a ≤ (i a).val ∧ (i a).val < win0_2.index t a * S1x8x64x64.size a + S1x8x64x64.size a := by
  show i ∈ ((View.whole main_v0_0).slice (win0_2.rect t)).set ↔ _
  rw [View.set_slice_whole, Rect.mem_set_unit]
  exact Iff.rfl

/-- Every index of output array 2 lies in the block of the point named by its leading coordinate. -/
theorem cover2 (c : Dev nD) : ∀ i : ((cfg0.win 2).arr.view.loc ((c : Dev nD) : Thread nD τ)).2.ty.Idx,
    ∃ t : Fin cfg0.N, (cfg0.win 2).flush t = true ∧ i ∈ ((cfg0.win 2).blk t).view.set := by
  intro i
  have h0 : ((i : S16x8x64x64.Idx) 0).val < 16 := ((i : S16x8x64x64.Idx) 0).isLt
  have h1 : ((i : S16x8x64x64.Idx) 1).val < 8 := ((i : S16x8x64x64.Idx) 1).isLt
  have h2 : ((i : S16x8x64x64.Idx) 2).val < 64 := ((i : S16x8x64x64.Idx) 2).isLt
  have h3 : ((i : S16x8x64x64.Idx) 3).val < 64 := ((i : S16x8x64x64.Idx) 3).isLt
  obtain ⟨t, ht⟩ : ∃ t : Fin cfg0.N, t.val = ((i : S16x8x64x64.Idx) 0).val :=
    ⟨⟨((i : S16x8x64x64.Idx) 0).val, by have hN : cfg0.N = 16 := N_0; omega⟩, rfl⟩
  refine ⟨t, flush0_2 t, ?_⟩
  obtain ⟨e0, e1, e2, e3⟩ := (idx_facts t).2.2.1
  rw [mem_blk2]
  intro a
  match a with
  | ⟨0, _⟩ => show win0_2.index t (0 : Fin 4) * 1 ≤ ((i : S16x8x64x64.Idx) 0).val ∧ ((i : S16x8x64x64.Idx) 0).val < win0_2.index t (0 : Fin 4) * 1 + 1; rw [e0, ht]; omega
  | ⟨1, _⟩ => show win0_2.index t (1 : Fin 4) * 8 ≤ ((i : S16x8x64x64.Idx) 1).val ∧ ((i : S16x8x64x64.Idx) 1).val < win0_2.index t (1 : Fin 4) * 8 + 8; rw [e1]; omega
  | ⟨2, _⟩ => show win0_2.index t (2 : Fin 4) * 64 ≤ ((i : S16x8x64x64.Idx) 2).val ∧ ((i : S16x8x64x64.Idx) 2).val < win0_2.index t (2 : Fin 4) * 64 + 64; rw [e2]; omega
  | ⟨3, _⟩ => show win0_2.index t (3 : Fin 4) * 64 ≤ ((i : S16x8x64x64.Idx) 3).val ∧ ((i : S16x8x64x64.Idx) 3).val < win0_2.index t (3 : Fin 4) * 64 + 64; rw [e3]; omega

/-- Output window 3's block at point t sits at rows (t, ·, ·, ·) of its array. -/
theorem blk3_emb (t : Fin cfg0.N) (y : S1x8x64x64.Idx) :
    (((cfg0.win 3).blk t).view.emb y : S16x8x64x64.Idx) = ix4 (tIdx t) ⟨(y 1).val, (y 1).isLt⟩ ⟨(y 2).val, (y 2).isLt⟩ ⟨(y 3).val, (y 3).isLt⟩ := by
  obtain ⟨e0, e1, e2, e3⟩ := (idx_facts t).2.2.2.1
  funext a
  apply Fin.ext
  match a with
  | ⟨0, _⟩ => show win0_3.index t (0 : Fin 4) * 1 + 1 * (y 0).val = t.val; rw [e0]; have h : (y 0).val < 1 := (y 0).isLt; omega
  | ⟨1, _⟩ => show win0_3.index t (1 : Fin 4) * 8 + 1 * (y 1).val = (y 1).val; rw [e1]; omega
  | ⟨2, _⟩ => show win0_3.index t (2 : Fin 4) * 64 + 1 * (y 2).val = (y 2).val; rw [e2]; omega
  | ⟨3, _⟩ => show win0_3.index t (3 : Fin 4) * 64 + 1 * (y 3).val = (y 3).val; rw [e3]; omega

/-- An index of output array 3 is in point t's block iff each coordinate is in the block's range on its axis. -/
theorem mem_blk3 (t : Fin cfg0.N) (i : S16x8x64x64.Idx) :
    i ∈ ((cfg0.win 3).blk t).view.set ↔ ∀ a : Fin 4, win0_3.index t a * S1x8x64x64.size a ≤ (i a).val ∧ (i a).val < win0_3.index t a * S1x8x64x64.size a + S1x8x64x64.size a := by
  show i ∈ ((View.whole main_v0_1).slice (win0_3.rect t)).set ↔ _
  rw [View.set_slice_whole, Rect.mem_set_unit]
  exact Iff.rfl

/-- Every index of output array 3 lies in the block of the point named by its leading coordinate. -/
theorem cover3 (c : Dev nD) : ∀ i : ((cfg0.win 3).arr.view.loc ((c : Dev nD) : Thread nD τ)).2.ty.Idx,
    ∃ t : Fin cfg0.N, (cfg0.win 3).flush t = true ∧ i ∈ ((cfg0.win 3).blk t).view.set := by
  intro i
  have h0 : ((i : S16x8x64x64.Idx) 0).val < 16 := ((i : S16x8x64x64.Idx) 0).isLt
  have h1 : ((i : S16x8x64x64.Idx) 1).val < 8 := ((i : S16x8x64x64.Idx) 1).isLt
  have h2 : ((i : S16x8x64x64.Idx) 2).val < 64 := ((i : S16x8x64x64.Idx) 2).isLt
  have h3 : ((i : S16x8x64x64.Idx) 3).val < 64 := ((i : S16x8x64x64.Idx) 3).isLt
  obtain ⟨t, ht⟩ : ∃ t : Fin cfg0.N, t.val = ((i : S16x8x64x64.Idx) 0).val :=
    ⟨⟨((i : S16x8x64x64.Idx) 0).val, by have hN : cfg0.N = 16 := N_0; omega⟩, rfl⟩
  refine ⟨t, flush0_3 t, ?_⟩
  obtain ⟨e0, e1, e2, e3⟩ := (idx_facts t).2.2.2.1
  rw [mem_blk3]
  intro a
  match a with
  | ⟨0, _⟩ => show win0_3.index t (0 : Fin 4) * 1 ≤ ((i : S16x8x64x64.Idx) 0).val ∧ ((i : S16x8x64x64.Idx) 0).val < win0_3.index t (0 : Fin 4) * 1 + 1; rw [e0, ht]; omega
  | ⟨1, _⟩ => show win0_3.index t (1 : Fin 4) * 8 ≤ ((i : S16x8x64x64.Idx) 1).val ∧ ((i : S16x8x64x64.Idx) 1).val < win0_3.index t (1 : Fin 4) * 8 + 8; rw [e1]; omega
  | ⟨2, _⟩ => show win0_3.index t (2 : Fin 4) * 64 ≤ ((i : S16x8x64x64.Idx) 2).val ∧ ((i : S16x8x64x64.Idx) 2).val < win0_3.index t (2 : Fin 4) * 64 + 64; rw [e2]; omega
  | ⟨3, _⟩ => show win0_3.index t (3 : Fin 4) * 64 ≤ ((i : S16x8x64x64.Idx) 3).val ∧ ((i : S16x8x64x64.Idx) 3).val < win0_3.index t (3 : Fin 4) * 64 + 64; rw [e3]; omega

/-- Output window 4's block at point t sits at rows (t, ·, ·, ·) of its array. -/
theorem blk4_emb (t : Fin cfg0.N) (y : S1x8x64x64.Idx) :
    (((cfg0.win 4).blk t).view.emb y : S16x8x64x64.Idx) = ix4 (tIdx t) ⟨(y 1).val, (y 1).isLt⟩ ⟨(y 2).val, (y 2).isLt⟩ ⟨(y 3).val, (y 3).isLt⟩ := by
  obtain ⟨e0, e1, e2, e3⟩ := (idx_facts t).2.2.2.2
  funext a
  apply Fin.ext
  match a with
  | ⟨0, _⟩ => show win0_4.index t (0 : Fin 4) * 1 + 1 * (y 0).val = t.val; rw [e0]; have h : (y 0).val < 1 := (y 0).isLt; omega
  | ⟨1, _⟩ => show win0_4.index t (1 : Fin 4) * 8 + 1 * (y 1).val = (y 1).val; rw [e1]; omega
  | ⟨2, _⟩ => show win0_4.index t (2 : Fin 4) * 64 + 1 * (y 2).val = (y 2).val; rw [e2]; omega
  | ⟨3, _⟩ => show win0_4.index t (3 : Fin 4) * 64 + 1 * (y 3).val = (y 3).val; rw [e3]; omega

/-- An index of output array 4 is in point t's block iff each coordinate is in the block's range on its axis. -/
theorem mem_blk4 (t : Fin cfg0.N) (i : S16x8x64x64.Idx) :
    i ∈ ((cfg0.win 4).blk t).view.set ↔ ∀ a : Fin 4, win0_4.index t a * S1x8x64x64.size a ≤ (i a).val ∧ (i a).val < win0_4.index t a * S1x8x64x64.size a + S1x8x64x64.size a := by
  show i ∈ ((View.whole main_v0_2).slice (win0_4.rect t)).set ↔ _
  rw [View.set_slice_whole, Rect.mem_set_unit]
  exact Iff.rfl

/-- Every index of output array 4 lies in the block of the point named by its leading coordinate. -/
theorem cover4 (c : Dev nD) : ∀ i : ((cfg0.win 4).arr.view.loc ((c : Dev nD) : Thread nD τ)).2.ty.Idx,
    ∃ t : Fin cfg0.N, (cfg0.win 4).flush t = true ∧ i ∈ ((cfg0.win 4).blk t).view.set := by
  intro i
  have h0 : ((i : S16x8x64x64.Idx) 0).val < 16 := ((i : S16x8x64x64.Idx) 0).isLt
  have h1 : ((i : S16x8x64x64.Idx) 1).val < 8 := ((i : S16x8x64x64.Idx) 1).isLt
  have h2 : ((i : S16x8x64x64.Idx) 2).val < 64 := ((i : S16x8x64x64.Idx) 2).isLt
  have h3 : ((i : S16x8x64x64.Idx) 3).val < 64 := ((i : S16x8x64x64.Idx) 3).isLt
  obtain ⟨t, ht⟩ : ∃ t : Fin cfg0.N, t.val = ((i : S16x8x64x64.Idx) 0).val :=
    ⟨⟨((i : S16x8x64x64.Idx) 0).val, by have hN : cfg0.N = 16 := N_0; omega⟩, rfl⟩
  refine ⟨t, flush0_4 t, ?_⟩
  obtain ⟨e0, e1, e2, e3⟩ := (idx_facts t).2.2.2.2
  rw [mem_blk4]
  intro a
  match a with
  | ⟨0, _⟩ => show win0_4.index t (0 : Fin 4) * 1 ≤ ((i : S16x8x64x64.Idx) 0).val ∧ ((i : S16x8x64x64.Idx) 0).val < win0_4.index t (0 : Fin 4) * 1 + 1; rw [e0, ht]; omega
  | ⟨1, _⟩ => show win0_4.index t (1 : Fin 4) * 8 ≤ ((i : S16x8x64x64.Idx) 1).val ∧ ((i : S16x8x64x64.Idx) 1).val < win0_4.index t (1 : Fin 4) * 8 + 8; rw [e1]; omega
  | ⟨2, _⟩ => show win0_4.index t (2 : Fin 4) * 64 ≤ ((i : S16x8x64x64.Idx) 2).val ∧ ((i : S16x8x64x64.Idx) 2).val < win0_4.index t (2 : Fin 4) * 64 + 64; rw [e2]; omega
  | ⟨3, _⟩ => show win0_4.index t (3 : Fin 4) * 64 ≤ ((i : S16x8x64x64.Idx) 3).val ∧ ((i : S16x8x64x64.Idx) 3).val < win0_4.index t (3 : Fin 4) * 64 + 64; rw [e3]; omega

end Cert.KernelIdeal.Hand

end
-- ==== Proof.PairSpec.lean ====
/-
  Pairwise comparisons of two families of row vectors, as functions of the two arrays, index by index.

  x and y are arrays [16, 8, 64, 128]: for each pair (s, p) a block of 64 rows of length 128. For rows n of x and m of y
  in the same block three numbers are formed on the extended reals:
    * the cosine: the sum over d of (x(n,d) / max(‖x_n‖, ε)) · (y(m,d) / max(‖y_m‖, ε)), ‖·‖ the square root of the sum
      of squares and ε the one positive literal both programs share;
    * the Euclidean distance, in two spellings: the square root of the sum over d of (x(n,d) − y(m,d))², and the square
      root of max(‖x_n‖² + ‖y_m‖² − 2·Σ_d x(n,d)·y(m,d), 0) (the Gram form);
    * the L1 distance: the sum over d of |x(n,d) − y(m,d)|.
  The three [16, 8, 64, 64] arrays are then laid side by side along a new last axis and flattened to [16, 32768, 3].
-/
import Idealize.ShloMosaic.PureOps.Ideal
import Idealize.ShloMosaic.Lib.ValueIdx

noncomputable section

namespace Cert.PairDist

open Idealize.ShloMosaic Idealize.ShloMosaic.ValueIdx

abbrev SIn : Shape := ⟨4, ![16, 8, 64, 128]⟩
abbrev SOut : Shape := ⟨4, ![16, 8, 64, 64]⟩
abbrev SOut1 : Shape := ⟨5, ![16, 8, 64, 64, 1]⟩
abbrev SOut3 : Shape := ⟨5, ![16, 8, 64, 64, 3]⟩
abbrev SRes : Shape := ⟨3, ![16, 32768, 3]⟩

/-- The floor put under a row's norm before dividing by it. -/
def eps : EReal := Ideal.ofBits .f32 0x2B8CBCCC#32

/-- The squared norm of row (s, p, n). -/
def sq (x : SIn.Idx → EReal) (s : Fin 16) (p : Fin 8) (n : Fin 64) : EReal :=
  ∑ d : Fin 128, x (ix4 s p n d) * x (ix4 s p n d)

/-- Entry d of row (s, p, n) divided by the row's floored norm. -/
def unitAt (x : SIn.Idx → EReal) (s : Fin 16) (p : Fin 8) (n : Fin 64) (d : Fin 128) : EReal :=
  Ideal.div (x (ix4 s p n d)) (max (Ideal.sqrt (sq x s p n)) eps)

/-- The cosine of rows n of x and m of y in block (s, p). -/
def cosAt (x y : SIn.Idx → EReal) (s : Fin 16) (p : Fin 8) (n m : Fin 64) : EReal :=
  ∑ d : Fin 128, unitAt x s p n d * unitAt y s p m d

/-- Their inner product. -/
def dotAt (x y : SIn.Idx → EReal) (s : Fin 16) (p : Fin 8) (n m : Fin 64) : EReal :=
  ∑ d : Fin 128, x (ix4 s p n d) * y (ix4 s p m d)

/-- Their Euclidean distance, from the differences. -/
def l2DiffAt (x y : SIn.Idx → EReal) (s : Fin 16) (p : Fin 8) (n m : Fin 64) : EReal :=
  Ideal.sqrt (∑ d : Fin 128, (x (ix4 s p n d) - y (ix4 s p m d)) * (x (ix4 s p n d) - y (ix4 s p m d)))

/-- Their Euclidean distance, from the two squared norms and the inner product (the Gram form), floored at zero. -/
def l2GramAt (x y : SIn.Idx → EReal) (s : Fin 16) (p : Fin 8) (n m : Fin 64) : EReal :=
  Ideal.sqrt (max (sq x s p n + sq y s p m - Ideal.ofBits .f32 0x40000000#32 * dotAt x y s p n m)
    (Ideal.ofBits .f32 0x00000000#32))

/-- Their L1 distance. -/
def l1At (x y : SIn.Idx → EReal) (s : Fin 16) (p : Fin 8) (n m : Fin 64) : EReal :=
  ∑ d : Fin 128, FloatOps.absf (F := Ideal) (φ := .f32) (x (ix4 s p n d) - y (ix4 s p m d))

/-- A function of (s, p, n, m) as an array [16, 8, 64, 64]. -/
def arr (f : Fin 16 → Fin 8 → Fin 64 → Fin 64 → EReal) : FVec Ideal SOut .f32 :=
  fun i => f (i 0) (i 1) (i 2) (i 3)

theorem arr_ix4 (f : Fin 16 → Fin 8 → Fin 64 → Fin 64 → EReal) (s : Fin 16) (p : Fin 8) (n m : Fin 64) :
    arr f (ix4 s p n m) = f s p n m := rfl

def cosG (x y : SIn.Idx → EReal) : FVec Ideal SOut .f32 := arr (cosAt x y)
def l2DiffG (x y : SIn.Idx → EReal) : FVec Ideal SOut .f32 := arr (l2DiffAt x y)
def l2GramG (x y : SIn.Idx → EReal) : FVec Ideal SOut .f32 := arr (l2GramAt x y)
def l1G (x y : SIn.Idx → EReal) : FVec Ideal SOut .f32 := arr (l1At x y)

theorem bcast_out : SOut.BroadcastsInDim SOut1 ![0, 1, 2, 3] := by decide
theorem concat_out : Shape.Concatenates ([SOut1, SOut1, SOut1]) SOut3 4 := by decide
theorem casts_out : SOut3.ShapeCasts SRes := by decide

/-- Three [16, 8, 64, 64] arrays side by side along a new last axis, flattened to [16, 32768, 3]. -/
def stack3 (a b c : FVec Ideal SOut .f32) : FVec Ideal SRes .f32 :=
  shapeCast SRes (concatenate SOut3 4
    [⟨SOut1, broadcastInDim SOut1 ![0, 1, 2, 3] bcast_out a⟩, ⟨SOut1, broadcastInDim SOut1 ![0, 1, 2, 3] bcast_out b⟩,
     ⟨SOut1, broadcastInDim SOut1 ![0, 1, 2, 3] bcast_out c⟩] concat_out) casts_out

end Cert.PairDist

end
-- ==== Proof.LibNary.lean ====
import Idealize.ShloMosaic.Lib.StableHlo.Run

noncomputable section

namespace Cert.LibNary

open Idealize.ShloMosaic Idealize.ShloMosaic.StableHlo

variable {τ : Topo} {sig : RefSig} {Val : EltTy → Type} {x a b c e y : Ref sig .tc}

/-- A host operation over a LITERAL family of three operand references (a concatenation of three arrays), at its own
    result reference: its function of each operand's contents at that operand's own reference, so that reading the
    contents after a list of host operations can go on into the operands. (The library states the same for four.) -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for five operand references. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The two literal forms with the result reference un-indexed, for a one-pass `simp` (as the library restates its own). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- The contents after two lists of host operations run one after the other. -/
theorem after_append {Val' : EltTy → Type} {τ' : Topo} {sig' : RefSig} (l1 l2 : List (HloOp τ' sig' Val')) (V : Valuation τ' sig' Val') :
    after (l1 ++ l2) V = after l2 (after l1 V) := by
  induction l1 generalizing V with
  | nil => rfl
  | cons op ops ih => simp only [List.cons_append, after_cons, ih]

end Cert.LibNary

/-- Reads the contents of one reference after a literal list of host operations, as the library's `after_results` does, with
    the literal three- and five-operand forms tried before the general one. -/
macro "after_results_lit" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result]
               | rw [Idealize.ShloMosaic.StableHlo.reshape_result] | rw [Idealize.ShloMosaic.StableHlo.binaryIndexed_result]
               | rw [Cert.LibNary.nary3_result] | rw [Idealize.ShloMosaic.StableHlo.nary4_result] | rw [Cert.LibNary.nary5_result]
               | rw [Idealize.ShloMosaic.StableHlo.nary_result] | rw [Idealize.ShloMosaic.StableHlo.unaryIndexed_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.binaryIndexed_result_ne]; rotate_left; decide)
               | (rw [Idealize.ShloMosaic.StableHlo.nary_result_ne]; rotate_left; decide)
               | (rw [Idealize.ShloMosaic.StableHlo.unaryIndexed_result_ne]; rotate_left; decide))))

/-- The same reading as ONE `simp` pass (each shared operand visited once), with the literal three-, four- and five-operand forms. -/
macro "after_results_simp_lit" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.KITail.lean ====
/-
  The five host lines after the launch, read at the ideal instance: each of the three output arrays gets a unit last
  axis, the three are laid side by side along it, and the result is reshaped to [16, 32768, 3]. None of the lines
  writes an output array, so what they read is what the launch wrote.
-/
import proofs.«134121_j84593675862346_2_alg».proof.Proof.KIFrame
import proofs.«134121_j84593675862346_2_alg».proof.Proof.PairSpec
import proofs.«134121_j84593675862346_2_alg».proof.Proof.LibNary

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The last result buffer is unscoped and is no window's array. -/
theorem v5_rest : main_v5 ∈ Pipeline.restRefs sig spec0 :=
  Pipeline.mem_restRefs_of main_v5 rfl (fun w => by fin_cases w <;> decide)

/-- After the five host lines (three unit-axis broadcasts, the concatenation, the reshape) the last result buffer holds
    the three output arrays side by side along a new last axis, flattened. -/
theorem tail_eq (c : Dev nD) : Pipeline.afterTail₀ cfgs (dats m) 0 (V0 m) [hostOps1] c main_v5
    = Cert.PairDist.stack3 ((dats m 0 c).arrAt 2 cfg0.N) ((dats m 0 c).arrAt 3 cfg0.N) ((dats m 0 c).arrAt 4 cfg0.N) := by
  have e2 : Pipeline.withArrays (cfgs 0).spec c (V0 m c) (fun w => (dats m 0 c).arrAt w (cfgs 0).N) (Proc.devRef .tc main_v0_0) = (dats m 0 c).arrAt 2 cfg0.N :=
    Pipeline.withArrays_arr spec0 launch0.win.arr_inj c _ _ 2
  have e3 : Pipeline.withArrays (cfgs 0).spec c (V0 m c) (fun w => (dats m 0 c).arrAt w (cfgs 0).N) (Proc.devRef .tc main_v0_1) = (dats m 0 c).arrAt 3 cfg0.N :=
    Pipeline.withArrays_arr spec0 launch0.win.arr_inj c _ _ 3
  have e4 : Pipeline.withArrays (cfgs 0).spec c (V0 m c) (fun w => (dats m 0 c).arrAt w (cfgs 0).N) (Proc.devRef .tc main_v0_2) = (dats m 0 c).arrAt 4 cfg0.N :=
    Pipeline.withArrays_arr spec0 launch0.win.arr_inj c _ _ 4
  unfold Pipeline.afterTail₀
  show StableHlo.after hostOps1 _ (Proc.devRef .tc main_v5) = _
  after_results_lit
  rw [e2, e3, e4]
  generalize (dats m 0 c).arrAt 2 cfg0.N = A2
  generalize (dats m 0 c).arrAt 3 cfg0.N = A3
  generalize (dats m 0 c).arrAt 4 cfg0.N = A4
  rfl

end Cert.KernelIdeal.Hand

end
-- ==== Proof.LibMatmulNT.lean ====
/-
  A rank-2 by rank-2 matrix product against a TRANSPOSED right operand, read at an index, at the ideal instance.

  For dimension numbers that contract the left operand's axis 1 with the right operand's axis 1 (a[M, K] against
  b[N, K], the product a · bᵀ with no transpose operation) and have no batch axis, the entry (r, c) of the product
  into a zero accumulator is the plain sum over k of a(r, k) * b(c, k) on the extended reals. The two side facts
  about the free axes (hl0, hr0) are decided once per literal record of dimension numbers.
-/
import Idealize.ShloMosaic.PureOps.Ideal.Laws
import Idealize.ShloMosaic.Lib.ValueIdx

noncomputable section

namespace Idealize.ShloMosaic.MatmulNT

open Idealize.ShloMosaic Idealize.ShloMosaic.ValueIdx

variable {M K N : Nat} {φ₁ φ₂ : FTy}

/-- The operand indices of such a product at output index `i` and contraction position `k` are (i 0, k) and (i 1, k). -/
theorem operand_indices
    (d : DotDims (⟨2, ![M, K]⟩ : Shape) (⟨2, ![N, K]⟩ : Shape) (⟨2, ![M, N]⟩ : Shape))
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 (i 1) k := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact hr0 _ _
    | ⟨1, _⟩ => exact (d.rhsIdx_val_of_single hcr _ _).trans hk

/-- A kernel's product a · bᵀ into the zero accumulator, entry by entry. -/
theorem matmul_zero_apply
    (d : DotDims (⟨2, ![M, K]⟩ : Shape) (⟨2, ![N, K]⟩ : Shape) (⟨2, ![M, N]⟩ : Shape)) (prec : Option ContractPrecision)
    (hcl : d.lhsContracting = [1]) (hcr : d.rhsContracting = [1])
    (hrk : d.contr.rank = 1) (hs : d.contr.size ⟨0, by omega⟩ = K)
    (hl0 : ∀ i q, (d.lhsIdx i q 0).val = (i 0).val) (hr0 : ∀ i q, (d.rhsIdx i q 0).val = (i 1).val)
    (a : FVec Ideal (⟨2, ![M, K]⟩ : Shape) φ₁) (b : FVec Ideal (⟨2, ![N, K]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 (i 1) k) := by
  rw [Ideal.matmul_constant_zero_apply, ← Equiv.sum_comp (contrEquiv1 d K hrk hs).symm]
  refine Finset.sum_congr rfl fun k _ => ?_
  obtain ⟨el, er⟩ := operand_indices d hcl hcr hrk hs hl0 hr0 i k
  rw [el, er]
  rfl

end Idealize.ShloMosaic.MatmulNT

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibKeepdims3.lean ====
/-
  The "keepdims" forms at rank 3, and the sum along the last axis, read at an index.

  A sum along the last axis of an [a, b, c] array leaves an [a, b] array; "keepdims" puts a unit axis back in its
  place ([a, b] cast to [a, b, 1]) and a broadcast spreads the per-(i, j) quantity over the last axis again
  ([a, b, 1] to [a, b, c]). A block of rows [a, c] set against every middle coordinate goes [a, c] to [a, 1, c] to
  [a, b, c]; a block [b, c] set against every leading coordinate goes [b, c] to [1, b, c] to [a, b, c]. Each of these
  operations, read at coordinates, is its operand at the evident coordinates, whatever the extents. At the ideal
  instance the sum along the last axis of a matrix or of a rank-3 array, read at an index, is the finite sum over the
  last coordinate on the extended reals.
-/
import Idealize.ShloMosaic.Lib.Pipeline.Value
import Idealize.ShloMosaic.Lib.ValueIdx
import Idealize.ShloMosaic.PureOps.Ideal.Laws

open scoped BigOperators

namespace Idealize.ShloMosaic.Keepdims3

open Idealize.ShloMosaic Idealize.ShloMosaic.ValueIdx Idealize.ShloMosaic.Pipeline

section Layout
variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A block of rows set against every middle coordinate: `[a, c]` to `[a, 1, c]` to `[a, b, c]` reads the row. -/
theorem rows_spread {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-- A per-`(i, j)` quantity spread over the last axis: `[a, b]` to `[a, b, 1]` to `[a, b, c]`. -/
theorem lanes_spread {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- A block set against every leading coordinate: `[b, c]` to `[1, b, c]` to `[a, b, c]` reads the block. -/
theorem block_spread {a b c : ℕ} (x : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ x h) h' (ix3 i j k) = x (ix2 j k) :=
  (broadcastTo_1bc_abc_apply _ h' i j k).trans (by
    refine shapeCast_apply x h _ _ ?_
    rw [Shape.rowMajor_val_three, Shape.rowMajor_val_two]
    show j.val * c + k.val = ((0 : Fin 1).val * b + j.val) * c + k.val
    rw [Fin.val_zero, Nat.zero_mul, Nat.zero_add])

end Layout

section LaneSum
variable {φ : FTy}

/-- The sum of a matrix along its last axis, at row `i`: the finite sum of the row's entries. -/
theorem laneSum2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => ?_)
  match ax with
  | ⟨0, _⟩ => rfl
  | ⟨1, _⟩ => rfl

/-- The sum of a rank-3 array along its last axis, at `(i, j)`: the finite sum over the last coordinate. -/
theorem laneSum3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  show ∑ k : Fin c, src (h.lift (ix2 i j) k) = ∑ k : Fin c, src (ix3 i j k)
  refine Finset.sum_congr rfl fun k _ => congrArg src (funext fun ax => ?_)
  match ax with
  | ⟨0, _⟩ => rfl
  | ⟨1, _⟩ => rfl
  | ⟨2, _⟩ => rfl

end LaneSum

end Idealize.ShloMosaic.Keepdims3
-- ==== Proof.PairPayload.lean ====
/-
  The arithmetic of one block of the pairwise comparison, read at an index, on the extended reals.

  One block is 64 rows of x and 64 rows of y, each of length 128, held as [1, 1, 64, 128] arrays. From them three
  64 by 64 matrices are formed: the cosine of every pair of rows (each row divided by its floored norm, then all inner
  products), the Euclidean distance in its Gram form, and the L1 distance (all differences laid out as a [64, 64, 128]
  array, absolute values summed along the last axis). Each intermediate array is read at explicit coordinates, and
  the three results are the closed forms of the shared specification.
-/
import proofs.«134121_j84593675862346_2_alg».proof.Proof.Gen.KernelIdeal.Skeleton
import proofs.«134121_j84593675862346_2_alg».proof.Proof.PairSpec
import proofs.«134121_j84593675862346_2_alg».proof.Proof.LibMatmulNT
import proofs.«134121_j84593675862346_2_alg».proof.Proof.LibKeepdims
import proofs.«134121_j84593675862346_2_alg».proof.Proof.LibKeepdims3
import Idealize.ShloMosaic.Lib.ValueLayout

open scoped BigOperators

noncomputable section

namespace Cert.PairDist.Payload

open Cert.KernelIdeal Cert.KernelIdeal.Gen Idealize.ShloMosaic Idealize.ShloMosaic.ValueIdx

/-! ## The two slabs as matrices -/

/-- A [1, 1, 64, 128] array cast to [64, 128] reads, at (n, d), the operand at (0, 0, n, d). -/
theorem slabX_apply (v : Vec Ideal S1x1x64x128 .f32) (n : Fin 64) (d : Fin 128) :
    k0_pay4 (F := Ideal) v (ix2 n d) = v (ix4 (0 : Fin 1) (0 : Fin 1) n d) := by
  unfold k0_pay4
  exact shapeCast_apply v _ _ _ (by
    rw [Shape.rowMajor_val_four, Shape.rowMajor_val_two]
    show ((0 * 1 + 0) * 64 + n.val) * 128 + d.val = n.val * 128 + d.val
    omega)

theorem slabY_apply (v : Vec Ideal S1x1x64x128 .f32) (n : Fin 64) (d : Fin 128) :
    k0_pay5 (F := Ideal) v (ix2 n d) = v (ix4 (0 : Fin 1) (0 : Fin 1) n d) := by
  unfold k0_pay5
  exact shapeCast_apply v _ _ _ (by
    rw [Shape.rowMajor_val_four, Shape.rowMajor_val_two]
    show ((0 * 1 + 0) * 64 + n.val) * 128 + d.val = n.val * 128 + d.val
    omega)

/-! ## The rows' squared norms, as columns -/

/-- The column of squared norms of the first slab's rows. -/
theorem sqX_apply (v : Vec Ideal S1x1x64x128 .f32) (n : Fin 64) (u : Fin 1) :
    k0_pay6 (F := Ideal) v (ix2 n u)
      = ∑ d : Fin 128, v (ix4 (0 : Fin 1) (0 : Fin 1) n d) * v (ix4 (0 : Fin 1) (0 : Fin 1) n d) := by
  unfold k0_pay6
  refine (Keepdims.shapeCast_a_a1_apply _ _ n u).trans ?_
  refine (Keepdims3.laneSum2_apply _ _ _ _ _ n).trans ?_
  refine Finset.sum_congr rfl fun d _ => ?_
  rw [mulf_apply, slabX_apply]

/-- The column of squared norms of the second slab's rows. -/
theorem sqY_apply (v : Vec Ideal S1x1x64x128 .f32) (n : Fin 64) (u : Fin 1) :
    k0_pay7 (F := Ideal) v (ix2 n u)
      = ∑ d : Fin 128, v (ix4 (0 : Fin 1) (0 : Fin 1) n d) * v (ix4 (0 : Fin 1) (0 : Fin 1) n d) := by
  unfold k0_pay7
  refine (Keepdims.shapeCast_a_a1_apply _ _ n u).trans ?_
  refine (Keepdims3.laneSum2_apply _ _ _ _ _ n).trans ?_
  refine Finset.sum_congr rfl fun d _ => ?_
  rw [mulf_apply, slabY_apply]

/-! ## Pointwise operations the index lemmas of the library do not name -/

theorem sqrt_apply {s : Shape} {φ : FTy} (a : FVec Ideal s φ) (i : s.Idx) : sqrt a i = Ideal.sqrt (a i) := rfl

theorem absf_apply {s : Shape} {φ : FTy} (a : FVec Ideal s φ) (i : s.Idx) :
    absf a i = FloatOps.absf (F := Ideal) (φ := φ) (a i) := rfl

/-! ## The product's dimension numbers: both operands contracted on their second axis -/

theorem dot_lhs0 (i : S64x64.Idx) (q : dot_S64x128_S64x128_S64x64_1_1_0_0_n_n.contr.Idx) :
    (dot_S64x128_S64x128_S64x64_1_1_0_0_n_n.lhsIdx i q 0).val = (i 0).val := by
  simp [DotDims.lhsIdx, dot_S64x128_S64x128_S64x64_1_1_0_0_n_n]; rfl

theorem dot_rhs0 (i : S64x64.Idx) (q : dot_S64x128_S64x128_S64x64_1_1_0_0_n_n.contr.Idx) :
    (dot_S64x128_S64x128_S64x64_1_1_0_0_n_n.rhsIdx i q 0).val = (i 1).val := by
  simp [DotDims.rhsIdx, dot_S64x128_S64x128_S64x64_1_1_0_0_n_n]; rfl

/-! ## The cosine matrix -/

/-- A row of the first slab divided by its floored norm. -/
theorem unitX_apply (v : Vec Ideal S1x1x64x128 .f32) (h : S64x1.Broadcasts S64x128) (n : Fin 64) (d : Fin 128) :
    divf (k0_pay4 (F := Ideal) v)
        (broadcastTo S64x128
          (maximumf (sqrt (k0_pay6 v)) (broadcast S64x1 (Scalar.ofBits (F := Ideal) .f32 0x2B8CBCCC#32))) h) (ix2 n d)
      = Ideal.div (v (ix4 (0 : Fin 1) (0 : Fin 1) n d))
          (max (Ideal.sqrt (∑ e : Fin 128, v (ix4 (0 : Fin 1) (0 : Fin 1) n e) * v (ix4 (0 : Fin 1) (0 : Fin 1) n e))) eps) := by
  rw [divf_apply, slabX_apply, Keepdims.broadcastTo_a1_ab_apply, maximumf_apply, sqrt_apply, sqX_apply, broadcast_apply]
  rfl

/-- A row of the second slab divided by its floored norm. -/
theorem unitY_apply (v : Vec Ideal S1x1x64x128 .f32) (h : S64x1.Broadcasts S64x128) (n : Fin 64) (d : Fin 128) :
    divf (k0_pay5 (F := Ideal) v)
        (broadcastTo S64x128
          (maximumf (sqrt (k0_pay7 v)) (broadcast S64x1 (Scalar.ofBits (F := Ideal) .f32 0x2B8CBCCC#32))) h) (ix2 n d)
      = Ideal.div (v (ix4 (0 : Fin 1) (0 : Fin 1) n d))
          (max (Ideal.sqrt (∑ e : Fin 128, v (ix4 (0 : Fin 1) (0 : Fin 1) n e) * v (ix4 (0 : Fin 1) (0 : Fin 1) n e))) eps) := by
  rw [divf_apply, slabY_apply, Keepdims.broadcastTo_a1_ab_apply, maximumf_apply, sqrt_apply, sqY_apply, broadcast_apply]
  rfl

/-- The cosine matrix at (n, m): the inner product of the two rows, each divided by its floored norm (the rounding
    of the quotients to the narrower format is the identity on the extended reals). -/
theorem cosMat_apply (v2 v5 : Vec Ideal S1x1x64x128 .f32) (n m : Fin 64) :
    k0_pay8 (F := Ideal) v2 v5 (ix2 n m)
      = ∑ d : Fin 128,
          Ideal.div (v2 (ix4 (0 : Fin 1) (0 : Fin 1) n d))
              (max (Ideal.sqrt (∑ e : Fin 128, v2 (ix4 (0 : Fin 1) (0 : Fin 1) n e) * v2 (ix4 (0 : Fin 1) (0 : Fin 1) n e))) eps)
            * Ideal.div (v5 (ix4 (0 : Fin 1) (0 : Fin 1) m d))
              (max (Ideal.sqrt (∑ e : Fin 128, v5 (ix4 (0 : Fin 1) (0 : Fin 1) m e) * v5 (ix4 (0 : Fin 1) (0 : Fin 1) m e))) eps) := by
  unfold k0_pay8
  refine (MatmulNT.matmul_zero_apply _ none rfl rfl rfl rfl dot_lhs0 dot_rhs0 _ _ (ix2 n m)).trans ?_
  refine Finset.sum_congr rfl fun d _ => ?_
  exact congrArg₂ (· * ·) (unitX_apply v2 _ n d) (unitY_apply v5 _ m d)

/-! ## The Euclidean distance in its Gram form -/

/-- The matrix of inner products of the rows. -/
theorem dotMat_apply (v2 v5 : Vec Ideal S1x1x64x128 .f32) (n m : Fin 64) :
    matmul dot_S64x128_S64x128_S64x64_1_1_0_0_n_n (some .fp32) (k0_pay4 (F := Ideal) v2) (k0_pay5 (F := Ideal) v5)
        (constant S64x64 .f32 0x00000000#32) (ix2 n m)
      = ∑ d : Fin 128, v2 (ix4 (0 : Fin 1) (0 : Fin 1) n d) * v5 (ix4 (0 : Fin 1) (0 : Fin 1) m d) := by
  refine (MatmulNT.matmul_zero_apply _ (some .fp32) rfl rfl rfl rfl dot_lhs0 dot_rhs0 _ _ (ix2 n m)).trans ?_
  refine Finset.sum_congr rfl fun d _ => ?_
  exact congrArg₂ (· * ·) (slabX_apply v2 n d) (slabY_apply v5 m d)

/-- The squared norm of row n of the first slab plus that of row m of the second: a column spread over the
    columns plus a column laid down as a row and spread over the rows. -/
theorem normSum_apply (v2 v5 : Vec Ideal S1x1x64x128 .f32) (h1 : S64x1.Broadcasts S64x64) (ht : S64x1.Transposes [1, 0] S1x64)
    (h2 : S1x64.Broadcasts S64x64) (n m : Fin 64) :
    addf (broadcastTo S64x64 (k0_pay6 (F := Ideal) v2) h1)
        (broadcastTo S64x64 (transpose S1x64 [1, 0] (k0_pay7 (F := Ideal) v5) ht) h2) (ix2 n m)
      = (∑ d : Fin 128, v2 (ix4 (0 : Fin 1) (0 : Fin 1) n d) * v2 (ix4 (0 : Fin 1) (0 : Fin 1) n d))
        + ∑ d : Fin 128, v5 (ix4 (0 : Fin 1) (0 : Fin 1) m d) * v5 (ix4 (0 : Fin 1) (0 : Fin 1) m d) := by
  rw [addf_apply, Keepdims.broadcastTo_a1_ab_apply, broadcastTo_1b_ab_apply, transpose_ix2_apply, sqX_apply, sqY_apply]

/-- The Gram-form distance matrix at (n, m). -/
theorem gramMat_apply (v2 v5 : Vec Ideal S1x1x64x128 .f32) (n m : Fin 64) :
    k0_pay9 (F := Ideal) v2 v5 (ix2 n m)
      = Ideal.sqrt (max
          ((∑ d : Fin 128, v2 (ix4 (0 : Fin 1) (0 : Fin 1) n d) * v2 (ix4 (0 : Fin 1) (0 : Fin 1) n d))
            + (∑ d : Fin 128, v5 (ix4 (0 : Fin 1) (0 : Fin 1) m d) * v5 (ix4 (0 : Fin 1) (0 : Fin 1) m d))
            - Ideal.ofBits .f32 0x40000000#32
              * ∑ d : Fin 128, v2 (ix4 (0 : Fin 1) (0 : Fin 1) n d) * v5 (ix4 (0 : Fin 1) (0 : Fin 1) m d))
          (Ideal.ofBits .f32 0x00000000#32)) := by
  unfold k0_pay9
  exact congrArg Ideal.sqrt (congrArg₂ max
    (congrArg₂ (· - ·) (normSum_apply v2 v5 _ _ _ n m) (congrArg₂ (· * ·) rfl (dotMat_apply v2 v5 n m))) rfl)

/-! ## The L1 distance -/

/-- The L1 matrix at (n, m): the rows of the first slab set against every row of the second, subtracted, absolute
    values summed along the last axis. -/
theorem l1Mat_apply (v2 v5 : Vec Ideal S1x1x64x128 .f32) (n m : Fin 64) :
    k0_pay10 (F := Ideal) v2 v5 (ix2 n m)
      = ∑ d : Fin 128, FloatOps.absf (F := Ideal) (φ := .f32)
          (v2 (ix4 (0 : Fin 1) (0 : Fin 1) n d) - v5 (ix4 (0 : Fin 1) (0 : Fin 1) m d)) := by
  unfold k0_pay10
  refine (Keepdims3.laneSum3_apply _ _ _ _ _ n m).trans ?_
  refine Finset.sum_congr rfl fun d _ => ?_
  rw [absf_apply, subf_apply, Keepdims3.rows_spread, Keepdims3.block_spread, slabX_apply, slabY_apply]

/-! ## The stored values: each matrix with two leading unit axes put back -/

/-- A [64, 64] matrix cast to [1, 1, 64, 64] reads, at (0, 0, n, m), the matrix at (n, m). -/
theorem unitCast_apply (w : FVec Ideal S64x64 .f32) (h : S64x64.ShapeCasts S1x1x64x64) (n m : Fin 64) :
    shapeCast S1x1x64x64 w h (ix4 (0 : Fin 1) (0 : Fin 1) n m) = w (ix2 n m) :=
  shapeCast_apply w h _ _ (by
    rw [Shape.rowMajor_val_two, Shape.rowMajor_val_four]
    show n.val * 64 + m.val = ((0 * 1 + 0) * 64 + n.val) * 64 + m.val
    omega)

/-! ## The three stored values against the specification -/

variable (x y : SIn.Idx → EReal) (s : Fin 16) (p : Fin 8) (v2 v5 : Vec Ideal S1x1x64x128 .f32)
  (hv2 : ∀ (n : Fin 64) (d : Fin 128), v2 (ix4 (0 : Fin 1) (0 : Fin 1) n d) = x (ix4 s p n d))
  (hv5 : ∀ (m : Fin 64) (d : Fin 128), v5 (ix4 (0 : Fin 1) (0 : Fin 1) m d) = y (ix4 s p m d))

include hv2 hv5

/-- The first stored value is the cosine of the specification. -/
theorem pay_cos (n m : Fin 64) :
    k0_pay1 (k0_pay8 (F := Ideal) v2 v5) (ix4 (0 : Fin 1) (0 : Fin 1) n m) = cosAt x y s p n m := by
  unfold k0_pay1
  refine (unitCast_apply _ _ n m).trans ?_
  rw [cosMat_apply]
  unfold cosAt unitAt sq
  simp only [hv2, hv5]

/-- The second stored value is the Gram-form Euclidean distance of the specification. -/
theorem pay_l2 (n m : Fin 64) :
    k0_pay2 (k0_pay9 (F := Ideal) v2 v5) (ix4 (0 : Fin 1) (0 : Fin 1) n m) = l2GramAt x y s p n m := by
  unfold k0_pay2
  refine (unitCast_apply _ _ n m).trans ?_
  rw [gramMat_apply]
  unfold l2GramAt sq dotAt
  simp only [hv2, hv5]

/-- The third stored value is the L1 distance of the specification. -/
theorem pay_l1 (n m : Fin 64) :
    k0_pay3 (k0_pay10 (F := Ideal) v2 v5) (ix4 (0 : Fin 1) (0 : Fin 1) n m) = l1At x y s p n m := by
  unfold k0_pay3
  refine (unitCast_apply _ _ n m).trans ?_
  rw [l1Mat_apply]
  unfold l1At
  simp only [hv2, hv5]

end Cert.PairDist.Payload

end
-- ==== Proof.KIValue.lean ====
/-
  The idealized kernel program's result as a function of its two argument arrays.

  At grid point t the two input blocks are rows (t, ·, ·, ·) of x and of y, so slab k of them is the pair of 64 by 128
  matrices x(t, k) and y(t, k), and what trip k stores is the cosine, Gram-form Euclidean distance and L1 distance
  matrices of those two: the output buffers, written back at rows (t, ·, ·, ·), make the three output arrays the three
  pairwise-comparison arrays of x and y. The host lines after the launch lay them side by side and flatten.
-/
import proofs.«134121_j84593675862346_2_alg».proof.Proof.KIBlock
import proofs.«134121_j84593675862346_2_alg».proof.Proof.KIGeom
import proofs.«134121_j84593675862346_2_alg».proof.Proof.KITail
import proofs.«134121_j84593675862346_2_alg».proof.Proof.PairPayload
import proofs.«134121_j84593675862346_2_alg».proof.Proof.PairSpec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.PairDist

variable (m : (ℓ : Loc nD τ sig) → Buf (Elt Ideal) ℓ) (ρ : Dev nD → PrngReg)

/-- Slab k of a block, at (0, 0, n, d), is the block at (0, k, n, d). -/
theorem slab_apply (x : Vec Ideal S1x8x64x128 .f32) (k : Fin k0_t1_loop.trips) (hk : k.val < 8) (n : Fin 64) (d : Fin 128) :
    slab x k (ix4 (0 : Fin 1) (0 : Fin 1) n d) = x (ix4 (0 : Fin 1) (⟨k.val, hk⟩ : Fin 8) n d) := by
  unfold slab
  show x ((Rect.unit (s := S1x8x64x128) (k0_off1 k) S1x1x64x128.size (k0_off1_inb k)).idx (ix4 (0 : Fin 1) (0 : Fin 1) n d)) = _
  refine congrArg x (funext fun a => Fin.ext ?_)
  match a with
  | ⟨0, _⟩ => rw [LoadRect.idx_apply]; show k0_off1 k 0 + 1 * 0 = 0; rw [show k0_off1 k 0 = 0 from congrFun (k0_off1_eq k) 0]
  | ⟨1, _⟩ => rw [LoadRect.idx_apply]; show k0_off1 k 1 + 1 * 0 = k.val; rw [show k0_off1 k 1 = k.val from congrFun (k0_off1_eq k) 1]; omega
  | ⟨2, _⟩ => rw [LoadRect.idx_apply]; show k0_off1 k 2 + 1 * n.val = n.val; rw [show k0_off1 k 2 = 0 from congrFun (k0_off1_eq k) 2]; omega
  | ⟨3, _⟩ => rw [LoadRect.idx_apply]; show k0_off1 k 3 + 1 * d.val = d.val; rw [show k0_off1 k 3 = 0 from congrFun (k0_off1_eq k) 3]; omega

/-- Slab k of the block of x at point t is rows (t, k, ·, ·) of x; the same for y. -/
theorem slab0 (c : Dev nD) (t : Fin cfg0.N) (k : Fin k0_t1_loop.trips) (hk : k.val < 8) (n : Fin 64) (d : Fin 128) :
    slab (iblk m c 0 t) k (ix4 (0 : Fin 1) (0 : Fin 1) n d)
      = (m ((c : Thread nD τ).loc main_arg0) : S16x8x64x128.Idx → EReal) (ix4 (tIdx t) (⟨k.val, hk⟩ : Fin 8) n d) :=
  (slab_apply (iblk m c 0 t) k hk n d).trans (iblk0_apply m c t ⟨k.val, hk⟩ n d)
theorem slab1 (c : Dev nD) (t : Fin cfg0.N) (k : Fin k0_t1_loop.trips) (hk : k.val < 8) (n : Fin 64) (d : Fin 128) :
    slab (iblk m c 1 t) k (ix4 (0 : Fin 1) (0 : Fin 1) n d)
      = (m ((c : Thread nD τ).loc main_arg1) : S16x8x64x128.Idx → EReal) (ix4 (tIdx t) (⟨k.val, hk⟩ : Fin 8) n d) :=
  (slab_apply (iblk m c 1 t) k hk n d).trans (iblk1_apply m c t ⟨k.val, hk⟩ n d)

/-- What the body leaves in the three output buffers at point t, entry (0, k, n, m): the three comparisons of rows
    (t, k, n, ·) of x and (t, k, m, ·) of y. -/
theorem G2_at (c : Dev nD) (t : Fin cfg0.N) (y : S1x8x64x64.Idx) :
    G2 (F := Ideal) (iblk m c 0 t) (iblk m c 1 t) y
      = cosAt (m ((c : Thread nD τ).loc main_arg0)) (m ((c : Thread nD τ).loc main_arg1)) (tIdx t) ⟨(y 1).val, (y 1).isLt⟩ ⟨(y 2).val, (y 2).isLt⟩ ⟨(y 3).val, (y 3).isLt⟩ :=
  Cert.PairDist.Payload.pay_cos _ _ (tIdx t) ⟨(y 1).val, (y 1).isLt⟩ (slab (iblk m c 0 t) (tripOf y)) (slab (iblk m c 1 t) (tripOf y))
    (fun n d => slab0 m c t (tripOf y) (y 1).isLt n d) (fun n d => slab1 m c t (tripOf y) (y 1).isLt n d) _ _
theorem G3_at (c : Dev nD) (t : Fin cfg0.N) (y : S1x8x64x64.Idx) :
    G3 (F := Ideal) (iblk m c 0 t) (iblk m c 1 t) y
      = l2GramAt (m ((c : Thread nD τ).loc main_arg0)) (m ((c : Thread nD τ).loc main_arg1)) (tIdx t) ⟨(y 1).val, (y 1).isLt⟩ ⟨(y 2).val, (y 2).isLt⟩ ⟨(y 3).val, (y 3).isLt⟩ :=
  Cert.PairDist.Payload.pay_l2 _ _ (tIdx t) ⟨(y 1).val, (y 1).isLt⟩ (slab (iblk m c 0 t) (tripOf y)) (slab (iblk m c 1 t) (tripOf y))
    (fun n d => slab0 m c t (tripOf y) (y 1).isLt n d) (fun n d => slab1 m c t (tripOf y) (y 1).isLt n d) _ _
theorem G4_at (c : Dev nD) (t : Fin cfg0.N) (y : S1x8x64x64.Idx) :
    G4 (F := Ideal) (iblk m c 0 t) (iblk m c 1 t) y
      = l1At (m ((c : Thread nD τ).loc main_arg0)) (m ((c : Thread nD τ).loc main_arg1)) (tIdx t) ⟨(y 1).val, (y 1).isLt⟩ ⟨(y 2).val, (y 2).isLt⟩ ⟨(y 3).val, (y 3).isLt⟩ :=
  Cert.PairDist.Payload.pay_l1 _ _ (tIdx t) ⟨(y 1).val, (y 1).isLt⟩ (slab (iblk m c 0 t) (tripOf y)) (slab (iblk m c 1 t) (tripOf y))
    (fun n d => slab0 m c t (tripOf y) (y 1).isLt n d) (fun n d => slab1 m c t (tripOf y) (y 1).isLt n d) _ _

/-- What point t writes back into each output array is block t of the comparison array. -/
theorem flushed2_eq (c : Dev nD) (t : Fin cfg0.N) :
    (dats m 0 c).flushed 2 t = ((cfg0.win 2).blk t).view.read (Elt Ideal) (cosG (m ((c : Thread nD τ).loc main_arg0)) (m ((c : Thread nD τ).loc main_arg1))) := by
  show (cfg0.win 2).cut (grid0.coords t) ((dats m 0 c).after 2 t) = _
  rw [after0_2]; unfold outAt0_2; rw [out2_eq]
  funext y
  show G2 (F := Ideal) (iblk m c 0 t) (iblk m c 1 t) y = cosG _ _ (((cfg0.win 2).blk t).view.emb y)
  rw [blk2_emb, G2_at]; rfl
theorem flushed3_eq (c : Dev nD) (t : Fin cfg0.N) :
    (dats m 0 c).flushed 3 t = ((cfg0.win 3).blk t).view.read (Elt Ideal) (l2GramG (m ((c : Thread nD τ).loc main_arg0)) (m ((c : Thread nD τ).loc main_arg1))) := by
  show (cfg0.win 3).cut (grid0.coords t) ((dats m 0 c).after 3 t) = _
  rw [after0_3]; unfold outAt0_3; rw [out3_eq]
  funext y
  show G3 (F := Ideal) (iblk m c 0 t) (iblk m c 1 t) y = l2GramG _ _ (((cfg0.win 3).blk t).view.emb y)
  rw [blk3_emb, G3_at]; rfl
theorem flushed4_eq (c : Dev nD) (t : Fin cfg0.N) :
    (dats m 0 c).flushed 4 t = ((cfg0.win 4).blk t).view.read (Elt Ideal) (l1G (m ((c : Thread nD τ).loc main_arg0)) (m ((c : Thread nD τ).loc main_arg1))) := by
  show (cfg0.win 4).cut (grid0.coords t) ((dats m 0 c).after 4 t) = _
  rw [after0_4]; unfold outAt0_4; rw [out4_eq]
  funext y
  show G4 (F := Ideal) (iblk m c 0 t) (iblk m c 1 t) y = l1G _ _ (((cfg0.win 4).blk t).view.emb y)
  rw [blk4_emb, G4_at]; rfl

/-- The sixteen blocks tile each output array, so after the run it is the comparison array. -/
theorem final2 (c : Dev nD) : (dats m 0 c).arrAt 2 cfg0.N = cosG (m ((c : Thread nD τ).loc main_arg0)) (m ((c : Thread nD τ).loc main_arg1)) :=
  (dats m 0 c).arrAt_eq_of_cover 2 _ (fun t _ => flushed2_eq m c t) (cover2 c)
theorem final3 (c : Dev nD) : (dats m 0 c).arrAt 3 cfg0.N = l2GramG (m ((c : Thread nD τ).loc main_arg0)) (m ((c : Thread nD τ).loc main_arg1)) :=
  (dats m 0 c).arrAt_eq_of_cover 3 _ (fun t _ => flushed3_eq m c t) (cover3 c)
theorem final4 (c : Dev nD) : (dats m 0 c).arrAt 4 cfg0.N = l1G (m ((c : Thread nD τ).loc main_arg0)) (m ((c : Thread nD τ).loc main_arg1)) :=
  (dats m 0 c).arrAt_eq_of_cover 4 _ (fun t _ => flushed4_eq m c t) (cover4 c)

/-- The idealized kernel program runs, ends with its result at the three comparison arrays of its arguments laid side by
    side and flattened, and leaves the arguments as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = Cert.PairDist.stack3 (Cert.PairDist.cosG (m ((c.tc : Thread nD τ).loc main_arg0)) (m ((c.tc : Thread nD τ).loc main_arg1)))
              (Cert.PairDist.l2GramG (m ((c.tc : Thread nD τ).loc main_arg0)) (m ((c.tc : Thread nD τ).loc main_arg1)))
              (Cert.PairDist.l1G (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v5 v5_rest).trans ((tail_eq m c).trans (by rw [final2, final3, final4])),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Hand

end
-- ==== Proof.PairRef.lean ====
/-
  The reference program's result as a function of its two argument arrays x and y, both [16, 8, 64, 128].

  For rows n of x and m of y in one block (s, p) the program forms
    * the cosine: each row is divided, entry by entry, by the larger of its norm (the square root of zero plus the sum of
      its squares) and the shared positive floor, and the two unit rows are contracted over the last axis;
    * the Euclidean distance: both arrays are spread over a common index (s, p, n, m, d), subtracted, squared, summed
      over d starting from zero, and the square root taken;
    * the L1 distance: the absolute values of the same differences, summed over d starting from zero.
  Each of the three [16, 8, 64, 64] arrays gets a new last axis of length one, the three are joined along it and the
  result is flattened to [16, 32768, 3]. Read index by index these are the specification's cosine, Euclidean distance
  (from the differences) and L1 distance, stacked: a sum that starts from the zero word is the plain sum, and every
  layout step reads one entry of its operand at an index made of the same coordinates.
-/
import proofs.«134121_j84593675862346_2_alg».proof.Proof.PairSpec
import proofs.«134121_j84593675862346_2_alg».proof.Proof.Gen.ReferenceIdeal.Read

noncomputable section

namespace Cert.PairDist.Ref

open Idealize.ShloMosaic Idealize.ShloMosaic.ValueIdx
open Cert.ReferenceIdeal Cert.ReferenceIdeal.Read

/-! ## Where each stage reads its operand

The generated read-at-an-index lemmas compose one index function per layout step. At an index given by its coordinates
each composite is again an index given by coordinates. -/

/-- The row sum behind a norm, read at block (s, p), row n, term k: entry (s, p, n, k). -/
theorem normIdx0 (s : Fin 16) (p : Fin 8) (n : Fin 64) (d k : Fin 128) :
    idx_main_call0_v1 (idx_main_call0_v2 (idx_main_v3 (ix4 s p n d))) k = ix4 s p n k :=
  funext fun a => Fin.ext (by match a with | ⟨0, _⟩ => rfl | ⟨1, _⟩ => rfl | ⟨2, _⟩ => rfl | ⟨3, _⟩ => rfl)

theorem normIdx1 (s : Fin 16) (p : Fin 8) (n : Fin 64) (d k : Fin 128) :
    idx_main_call1_v1 (idx_main_call1_v2 (idx_main_v8 (ix4 s p n d))) k = ix4 s p n k :=
  funext fun a => Fin.ext (by match a with | ⟨0, _⟩ => rfl | ⟨1, _⟩ => rfl | ⟨2, _⟩ => rfl | ⟨3, _⟩ => rfl)

/-- The contraction's left operand at (s, p, n, m), term k: entry (s, p, n, k). -/
theorem dotIdxL (s : Fin 16) (p : Fin 8) (n m : Fin 64) (k : Fin 128) :
    lidx_main_v10 (ix4 s p n m) k = ix4 s p n k :=
  funext fun a => Fin.ext (by match a with | ⟨0, _⟩ => rfl | ⟨1, _⟩ => rfl | ⟨2, _⟩ => rfl | ⟨3, _⟩ => rfl)

/-- The contraction's right operand at (s, p, n, m), term k: entry (s, p, m, k). -/
theorem dotIdxR (s : Fin 16) (p : Fin 8) (n m : Fin 64) (k : Fin 128) :
    ridx_main_v10 (ix4 s p n m) k = ix4 s p m k :=
  funext fun a => Fin.ext (by match a with | ⟨0, _⟩ => rfl | ⟨1, _⟩ => rfl | ⟨2, _⟩ => rfl | ⟨3, _⟩ => rfl)

/-- x spread over (s, p, n, m, d) reads entry (s, p, n, d): the sum of squared differences. -/
theorem sqIdxX (s : Fin 16) (p : Fin 8) (n m : Fin 64) (k : Fin 128) :
    idx_main_v11 (idx_main_v13 (idx_main_v17 (ix4 s p n m) k)) = ix4 s p n k :=
  funext fun a => Fin.ext (by match a with | ⟨0, _⟩ => rfl | ⟨1, _⟩ => rfl | ⟨2, _⟩ => rfl | ⟨3, _⟩ => rfl)

/-- y spread over (s, p, n, m, d) reads entry (s, p, m, d): the sum of squared differences. -/
theorem sqIdxY (s : Fin 16) (p : Fin 8) (n m : Fin 64) (k : Fin 128) :
    idx_main_v12 (idx_main_v14 (idx_main_v17 (ix4 s p n m) k)) = ix4 s p m k :=
  funext fun a => Fin.ext (by match a with | ⟨0, _⟩ => rfl | ⟨1, _⟩ => rfl | ⟨2, _⟩ => rfl | ⟨3, _⟩ => rfl)

/-- The same two reads under the sum of absolute differences. -/
theorem absIdxX (s : Fin 16) (p : Fin 8) (n m : Fin 64) (k : Fin 128) :
    idx_main_v11 (idx_main_v13 (idx_main_v20 (ix4 s p n m) k)) = ix4 s p n k :=
  funext fun a => Fin.ext (by match a with | ⟨0, _⟩ => rfl | ⟨1, _⟩ => rfl | ⟨2, _⟩ => rfl | ⟨3, _⟩ => rfl)

theorem absIdxY (s : Fin 16) (p : Fin 8) (n m : Fin 64) (k : Fin 128) :
    idx_main_v12 (idx_main_v14 (idx_main_v20 (ix4 s p n m) k)) = ix4 s p m k :=
  funext fun a => Fin.ext (by match a with | ⟨0, _⟩ => rfl | ⟨1, _⟩ => rfl | ⟨2, _⟩ => rfl | ⟨3, _⟩ => rfl)

/-! ## The unit rows -/

/-- x divided by its floored row norm, at (s, p, n, d). The norm's sum starts from the zero word. -/
theorem unitX (x : FVec Ideal SIn .f32) (s : Fin 16) (p : Fin 8) (n : Fin 64) (d : Fin 128) :
    val_main_v4 (F := Ideal) x (ix4 s p n d) = unitAt x s p n d := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, normIdx0, Ideal.hostDivf_def, Ideal.maximumf_def, Ideal.hostUnary_sqrt_def,
    Ideal.mulf_def, Ideal.ofBits_def, Ideal.ofBits_zero_f32, zero_add]
  rfl

/-- y divided by its floored row norm, at (s, p, m, d). -/
theorem unitY (y : FVec Ideal SIn .f32) (s : Fin 16) (p : Fin 8) (m : Fin 64) (d : Fin 128) :
    val_main_v9 (F := Ideal) y (ix4 s p m d) = unitAt y s p m d := by
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, normIdx1, Ideal.hostDivf_def, Ideal.maximumf_def, Ideal.hostUnary_sqrt_def,
    Ideal.mulf_def, Ideal.ofBits_def, Ideal.ofBits_zero_f32, zero_add]
  rfl

/-! ## The three arrays -/

/-- The contraction of the unit rows over the last axis is the cosine. -/
theorem cos_eq (x y : FVec Ideal SIn .f32) : val_main_v10 (F := Ideal) x y = cosG x y := by
  funext i
  obtain ⟨s, p, n, m, rfl⟩ : ∃ (s : Fin 16) (p : Fin 8) (n m : Fin 64), i = ix4 s p n m :=
    ⟨i 0, i 1, i 2, i 3, eq_ix4 i⟩
  rw [val_main_v10_apply]
  show _ = cosAt x y s p n m
  unfold cosAt
  refine Finset.sum_congr rfl fun k _ => ?_
  rw [dotIdxL, dotIdxR, unitX, unitY]

/-- The square root of the sum over d of the squared differences is the Euclidean distance. -/
theorem l2_eq (x y : FVec Ideal SIn .f32) : val_main_v18 (F := Ideal) x y = l2DiffG x y := by
  funext i
  obtain ⟨s, p, n, m, rfl⟩ : ∃ (s : Fin 16) (p : Fin 8) (n m : Fin 64), i = ix4 s p n m :=
    ⟨i 0, i 1, i 2, i 3, eq_ix4 i⟩
  rw [val_main_v18_apply, val_main_v17_apply, val_main_cst_1_apply]
  simp only [val_main_v16_apply, val_main_v15_apply, val_main_v13_apply, val_main_v14_apply, val_main_v11_apply,
    val_main_v12_apply, sqIdxX, sqIdxY, Ideal.hostUnary_sqrt_def, Ideal.mulf_def, Ideal.subf_def, Ideal.ofBits_def,
    Ideal.ofBits_zero_f32, zero_add]
  rfl

/-- The sum over d of the absolute differences is the L1 distance. -/
theorem l1_eq (x y : FVec Ideal SIn .f32) : val_main_v20 (F := Ideal) x y = l1G x y := by
  funext i
  obtain ⟨s, p, n, m, rfl⟩ : ∃ (s : Fin 16) (p : Fin 8) (n m : Fin 64), i = ix4 s p n m :=
    ⟨i 0, i 1, i 2, i 3, eq_ix4 i⟩
  rw [val_main_v20_apply, val_main_cst_2_apply]
  simp only [val_main_v19_apply, val_main_v15_apply, val_main_v13_apply, val_main_v14_apply, val_main_v11_apply,
    val_main_v12_apply, absIdxX, absIdxY, Ideal.hostAbsf_def, Ideal.subf_def, Ideal.ofBits_def,
    Ideal.ofBits_zero_f32, zero_add]
  rfl

/-! ## The stack -/

/-- The program's last five steps — a new last axis on each of the three arrays, the join along it, the flattening —
    are the specification's stack of the three arrays. -/
theorem stack_eq (x y : FVec Ideal SIn .f32) :
    val_main_v25 (F := Ideal) x y
      = stack3 (val_main_v10 (F := Ideal) x y) (val_main_v18 (F := Ideal) x y) (val_main_v20 (F := Ideal) x y) := by
  unfold val_main_v25 val_main_v24 val_main_v21 val_main_v22 val_main_v23
  generalize val_main_v10 (F := Ideal) x y = a
  generalize val_main_v18 (F := Ideal) x y = b
  generalize val_main_v20 (F := Ideal) x y = c
  rfl

/-- The reference's result is the stack of the cosine, the Euclidean distance and the L1 distance of its arguments. -/
theorem result_eq (x y : FVec Ideal SIn .f32) :
    val_main_v25 (F := Ideal) x y = stack3 (cosG x y) (l2DiffG x y) (l1G x y) := by
  rw [stack_eq, cos_eq, l2_eq, l1_eq]

end Cert.PairDist.Ref

/-! ## The run -/

open Idealize.ShloMosaic Idealize.ShloMosaic.TcCoe Idealize.SL.Sem in
/-- On every device, from any memory with zero counters: every weakly fair execution of the reference terminates with
    its result at the stack of the cosine, the Euclidean distance and the L1 distance of the two argument arrays as
    they stood at the start, and with the argument arrays unchanged. -/
theorem Cert.PairDist.Ref.run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v25)
            = Cert.PairDist.stack3 (Cert.PairDist.cosG (m ((c.tc : Thread _ _).loc Cert.ReferenceIdeal.main_arg0)) (m ((c.tc : Thread _ _).loc Cert.ReferenceIdeal.main_arg1)))
                (Cert.PairDist.l2DiffG (m ((c.tc : Thread _ _).loc Cert.ReferenceIdeal.main_arg0)) (m ((c.tc : Thread _ _).loc Cert.ReferenceIdeal.main_arg1)))
                (Cert.PairDist.l1G (m ((c.tc : Thread _ _).loc Cert.ReferenceIdeal.main_arg0)) (m ((c.tc : Thread _ _).loc Cert.ReferenceIdeal.main_arg1)))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run Cert.ReferenceIdeal.defs _ _).mono
    (fun _ h c => ⟨(h c).1.trans ((Cert.ReferenceIdeal.Read.val_main_v25_eq _ _).trans (Cert.PairDist.Ref.result_eq _ _)), (h c).2⟩)
    (Cert.ReferenceIdeal.Value.run (F := Ideal) m ρ)

end
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.PairAlgebra.lean ====
/-
  The two spellings of the Euclidean distance agree on arrays of real numbers.

  For real numbers a_d, b_d:  Σ_d (a_d − b_d)² = Σ_d a_d² + Σ_d b_d² − 2 · Σ_d a_d · b_d, and the left side is a sum of
  squares, so it is ≥ 0 and flooring it at zero changes nothing. The extended reals do not distribute, so the identity
  is proved over the reals and carried across: every entry is the image of a real number, products, differences and
  finite sums of images are images, and the two literals the Gram form spells denote the reals 2 and 0.
-/
import proofs.«134121_j84593675862346_2_alg».proof.Proof.PairSpec
import proofs.«134121_j84593675862346_2_alg».proof.Proof.LibRealSum

noncomputable section

namespace Cert.PairDist

open Idealize.ShloMosaic Idealize.ShloMosaic.ValueIdx

/-- The word 0x40000000 denotes the real number 2. -/
theorem ofBits_two : Ideal.ofBits .f32 0x40000000#32 = ((2 : ℝ) : EReal) := by
  simp [Ideal.ofBits, Ideal.ieee, -EReal.coe_mul]; norm_num

/-- The word 0x00000000 denotes 0. -/
theorem ofBits_zero : Ideal.ofBits .f32 0x00000000#32 = ((0 : ℝ) : EReal) := by
  rw [EReal.coe_zero]; simp [Ideal.ofBits, Ideal.ieee]

/-- Over the reals: Σ (a − b)² = Σ a² + Σ b² − 2 Σ a·b. -/
theorem real_gram {n : ℕ} (a b : Fin n → ℝ) :
    ∑ d, a d * a d + ∑ d, b d * b d - 2 * ∑ d, a d * b d = ∑ d, (a d - b d) * (a d - b d) := by
  rw [Finset.mul_sum, ← Finset.sum_add_distrib, ← Finset.sum_sub_distrib]
  exact Finset.sum_congr rfl fun d _ => by ring

/-- A sum of squares of reals is nonnegative. -/
theorem real_diff_nonneg {n : ℕ} (a b : Fin n → ℝ) : 0 ≤ ∑ d, (a d - b d) * (a d - b d) :=
  Finset.sum_nonneg fun d _ => mul_self_nonneg _

/-- The Gram form and the difference form under the square root, for two rows of real numbers. -/
theorem gram_eq_diff_real {n : ℕ} (a b : Fin n → ℝ) :
    max ((∑ d, ((a d : ℝ) : EReal) * ((a d : ℝ) : EReal)) + (∑ d, ((b d : ℝ) : EReal) * ((b d : ℝ) : EReal))
          - Ideal.ofBits .f32 0x40000000#32 * ∑ d, ((a d : ℝ) : EReal) * ((b d : ℝ) : EReal))
        (Ideal.ofBits .f32 0x00000000#32)
      = ∑ d, (((a d : ℝ) : EReal) - ((b d : ℝ) : EReal)) * (((a d : ℝ) : EReal) - ((b d : ℝ) : EReal)) := by
  rw [ofBits_two, ofBits_zero]
  simp only [← EReal.coe_mul, ← EReal.coe_sub]
  rw [Cert.Lib.RealSum.coe_sum, Cert.Lib.RealSum.coe_sum, Cert.Lib.RealSum.coe_sum, Cert.Lib.RealSum.coe_sum,
    ← EReal.coe_mul, ← EReal.coe_add, ← EReal.coe_sub, real_gram]
  exact max_eq_left (EReal.coe_le_coe_iff.2 (real_diff_nonneg a b))

/-- For arrays of real numbers the Gram form of the Euclidean distance is the difference form:
    Σ_d (x_d − y_d)² = Σ x_d² + Σ y_d² − 2 Σ x_d y_d over the reals, which is ≥ 0, so the floor at zero does nothing. -/
theorem l2Gram_eq_l2Diff (x y : SIn.Idx → EReal) (hx : ∀ i, ∃ r : ℝ, x i = (r : EReal)) (hy : ∀ i, ∃ r : ℝ, y i = (r : EReal)) :
    l2GramG x y = l2DiffG x y := by
  choose a ha using hx
  choose b hb using hy
  funext i
  show l2GramAt x y (i 0) (i 1) (i 2) (i 3) = l2DiffAt x y (i 0) (i 1) (i 2) (i 3)
  unfold l2GramAt l2DiffAt sq dotAt
  simp only [ha, hb]
  exact congrArg Ideal.sqrt
    (gram_eq_diff_real (fun d => a (ix4 (i 0) (i 1) (i 2) d)) (fun d => b (ix4 (i 0) (i 1) (i 3) d)))

end Cert.PairDist

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.PairFinite.lean ====
/-
  The precondition "every entry of both inputs is finite", read back.

  The precondition is the conjunction of two tests, one per input: the and-reduction over all axes of the entrywise
  comparison |v| < +∞. A conjunction of two bits is 1 exactly when both are, and a test that came out 1 says every
  entry of its input is neither +∞ nor −∞, that is, a real number.
-/
import proofs.«134121_j84593675862346_2_alg».proof.Proof.LibFiniteEntry
import proofs.«134121_j84593675862346_2_alg».proof.Proof.Gen.Pre_finite_inputs
import Idealize.ShloMosaic.Lib.Affine

noncomputable section

namespace Cert.PairDist

open Idealize.ShloMosaic Idealize.ShloMosaic.ValueIdx

/-- The precondition "every entry of both inputs is finite" read back: every entry of both arrays is a real number. -/
theorem real_of_pre (a b : FVec Ideal Cert.Pre_finite_inputs.S16x8x64x128 .f32)
    (h : Cert.Pre_finite_inputs.fn (F := Ideal) a b = fun _ => 1#1) :
    (∀ i, ∃ r : ℝ, a i = (r : EReal)) ∧ (∀ i, ∃ r : ℝ, b i = (r : EReal)) := by
  have h0 := congrFun h ix0
  dsimp only [Cert.Pre_finite_inputs.fn] at h0
  obtain ⟨h1, h2⟩ := IntOp.andi_eq_one.1 h0
  exact ⟨Cert.Lib.FiniteEntry.all_real a _ _ _ _ h1, Cert.Lib.FiniteEntry.all_real b _ _ _ _ h2⟩

end Cert.PairDist

end
-- ==== Proof.PairClaims.lean ====
/-
  The certificate's five claims, each from the programs' runs.

  * The kernel as printed, the kernel read on the extended reals and the reference read on the extended reals each run,
    and each leaves its two argument arrays unchanged. For the reference this is its value run with the result forgotten.
  * Reading the kernel on the extended reals rewrote none of its operations, so there is nothing to preserve.
  * On the extended reals, from memories that agree on the two argument arrays x and y, the kernel and the reference end
    with the same array: the cosine, the Euclidean distance and the L1 distance of the rows of x and y, block by block,
    stacked. The two programs spell the cosine and the L1 distance alike. The reference takes the Euclidean distance
    from the differences, sqrt(Σ_d (x_d − y_d)²); the kernel takes it from the two squared norms and the inner product,
    sqrt(max(Σ_d x_d² + Σ_d y_d² − 2 Σ_d x_d y_d, 0)). Over the reals the two sums are equal and nonnegative, so the
    floor at zero does nothing. The extended reals do not distribute, so the law needs every entry of x and y to be a
    real number, which is what the precondition (every entry of both inputs finite) says.
-/
import proofs.«134121_j84593675862346_2_alg».proof.Defs
import proofs.«134121_j84593675862346_2_alg».proof.Proof.KFrame
import proofs.«134121_j84593675862346_2_alg».proof.Proof.KIValue
import proofs.«134121_j84593675862346_2_alg».proof.Proof.PairRef
import proofs.«134121_j84593675862346_2_alg».proof.Proof.PairAlgebra
import proofs.«134121_j84593675862346_2_alg».proof.Proof.PairFinite

noncomputable section

namespace Cert.Proof.PairClaims

open Idealize.ShloMosaic Idealize.ShloMosaic.TcCoe Idealize.SL.Sem

/-- The kernel as printed runs and leaves its arguments unchanged. -/
theorem frame_k : Cert.frame_Kernel := fun m ρ _ => Cert.Kernel.Hand.frame (F := Bits) m ρ

/-- The kernel on the extended reals runs and leaves its arguments unchanged. -/
theorem frame_ki : Cert.frame_KernelIdeal := fun m ρ _ => Cert.KernelIdeal.Hand.frame (F := Ideal) m ρ

/-- The reference on the extended reals runs and leaves its arguments unchanged: its value run, the result forgotten. -/
theorem frame_ri : Cert.frame_ReferenceIdeal := fun m ρ _ =>
  (θ_run Cert.ReferenceIdeal.defs _ _).mono (fun _ h c => (h c).2) (Cert.PairDist.Ref.run m ρ)

/-- No operation of the kernel was rewritten on the way to the extended reals. -/
theorem preserves : Cert.preserves_Kernel_KernelIdeal := trivial

/-- On the extended reals, from memories agreeing on the arguments x and y whose entries are all finite, both programs
    end with the stack of the cosine, the Euclidean distance and the L1 distance of x and y. The kernel's Euclidean
    distance is in the Gram form; on arrays of real numbers that is the difference form the reference computes. -/
theorem algebraic : Cert.algebraic_KernelIdeal_ReferenceIdeal := by
  intro m ρ m' ρ' hpre hagree
  have hreal := fun c => Cert.PairDist.real_of_pre _ _ (hpre c)
  refine ⟨fun c => Cert.PairDist.stack3
      (Cert.PairDist.cosG (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.PairDist.l2DiffG (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.PairDist.l1G (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Hand.run_value m ρ)
    rw [Cert.PairDist.l2Gram_eq_l2Diff _ _ (hreal c).1 (hreal c).2]
  · refine (θ_run Cert.ReferenceIdeal.defs _ _).mono (fun _ h c => ⟨(h c).1.trans ?_, (h c).2⟩)
      (Cert.PairDist.Ref.run m' ρ')
    rw [(hagree c).1, (hagree c).2]

end Cert.Proof.PairClaims

end
-- ==== Proof.lean ====
/-
  The certificate: the five claims about the kernel and the reference, under the side conditions the programs state.

  The kernel as printed, the kernel read on the extended reals and the reference read on the extended reals each run and
  leave their two argument arrays unchanged; reading the kernel on the extended reals rewrote nothing; and on the
  extended reals, from memories that agree on the argument arrays x and y with every entry finite, both programs end
  with the same array: for rows n of x and m of y in each block, the cosine, the Euclidean distance and the L1 distance,
  the three arrays side by side along a new last axis and flattened. The one law that joins the two sides is
  Σ_d (x_d − y_d)² = Σ_d x_d² + Σ_d y_d² − 2 Σ_d x_d y_d over the reals, both sides nonnegative: the kernel's Euclidean
  distance, taken from the squared norms and the inner product and floored at zero, is the reference's, taken from the
  differences. The side conditions' witnesses are the instances the generated modules prove.
-/
import proofs.«134121_j84593675862346_2_alg».proof.Defs
import proofs.«134121_j84593675862346_2_alg».proof.Proof.PairClaims

noncomputable section

namespace Cert.Proof

theorem claim : Cert.Claim := ⟨Cert.Kernel.Gen.facts, Cert.KernelIdeal.Gen.facts, Cert.ReferenceIdeal.Gen.facts, Cert.Pre_finite_inputs.Gen.facts,
  PairClaims.frame_k, PairClaims.frame_ki, PairClaims.frame_ri, PairClaims.preserves, PairClaims.algebraic⟩

end Cert.Proof

end
